-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v67)) (v1 : (c : Dev Cert.KernelIdeal.nD) → Buf (Elt Ideal) ((c.tc : Thread Cert.KernelIdeal.nD Cert.KernelIdeal.τ).loc Cert.KernelIdeal.main_v72)) (v2 : (c : Dev Cert.KernelIdeal.nD) → Buf (Elt Ideal) ((c.tc : Thread Cert.KernelIdeal.nD Cert.KernelIdeal.τ).loc Cert.KernelIdeal.main_v44)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v67) = v0 c
          ∧ r.2.mem ((c.tc : Thread Cert.KernelIdeal.nD Cert.KernelIdeal.τ).loc Cert.KernelIdeal.main_v72) = v1 c
          ∧ r.2.mem ((c.tc : Thread Cert.KernelIdeal.nD Cert.KernelIdeal.τ).loc Cert.KernelIdeal.main_v44) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000 : S_.BroadcastsInDim S800000 (![] : Fin 0 → Fin S800000.rank)
  reducesTo_S800000_S_d0 : S800000.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg8 : FVec F S64x64 .f32) (main_arg9 : FVec F S64x64 .f32) (main_v33 : IVec S_ 1) : IVec S_ 1 :=
  let main_v34 : FVec F S64x64 .f32 := Host.absf main_arg8
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  main_v43

def fn_part1 {F : FTy → Type} [FloatOps F] (main_arg5 : FVec F S64x64 .f32) (main_arg6 : FVec F S64x64 .f32) (main_arg7 : FVec F S64x64 .f32) (main_arg8 : FVec F S64x64 .f32) (main_arg9 : FVec F S64x64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg5
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64x64 .f32 := Host.absf main_arg7
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg8 main_arg9 main_v33

def fn {F : FTy → Type} [FloatOps F] (main_arg0 : FVec F S50000x64 .f32) (main_arg1 : FVec F S50000x64 .f32) (main_arg2 : IVec S2x800000 32) (main_arg3 : FVec F S800000 .f32) (main_arg4 : FVec F S64x64 .f32) (main_arg5 : FVec F S64x64 .f32) (main_arg6 : FVec F S64x64 .f32) (main_arg7 : FVec F S64x64 .f32) (main_arg8 : FVec F S64x64 .f32) (main_arg9 : FVec F S64x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x64 .f32 := Host.absf main_arg1
  let main_cst_0 : FVec F S_ .f32 := constant S_ .f32 0x7F800000#32
  let main_v5 : FVec F S50000x64 .f32 := broadcastInDim S50000x64 ![] bcast_S_S50000x64 main_cst_0
  let main_v6 : IVec S50000x64 1 := cmpf .olt main_v4 main_v5
  let main_c_1 : IVec S_ 1 := constantI S_ 1 1#1
  let main_v7 : IVec S_ 1 := (fun x v => Host.reduce IntOp.andi x v reducesTo_S50000x64_S_d0_1 h_S_) main_v6 main_c_1
  let main_v8 : IVec S_ 1 := andi main_v3 main_v7
  let main_v9 : FVec F S800000 .f32 := Host.absf main_arg3
  let main_cst_2 : FVec F S_ .f32 := constant S_ .f32 0x7F800000#32
  let main_v10 : FVec F S800000 .f32 := broadcastInDim S800000 ![] bcast_S_S800000 main_cst_2
  let main_v11 : IVec S800000 1 := cmpf .olt main_v9 main_v10
  let main_c_3 : IVec S_ 1 := constantI S_ 1 1#1
  let main_v12 : IVec S_ 1 := (fun x v => Host.reduce IntOp.andi x v reducesTo_S800000_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_arg8 main_arg9 main_v13 main_v16
-- ==== Kernel.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S_ : Shape := ⟨0, ![]⟩
abbrev S50000x128 : Shape := ⟨2, ![50000, 128]⟩
abbrev S5000x64 : Shape := ⟨2, ![5000, 64]⟩
abbrev S5000x128 : Shape := ⟨2, ![5000, 128]⟩
abbrev S1x800000 : Shape := ⟨2, ![1, 800000]⟩
abbrev S800000x1 : Shape := ⟨2, ![800000, 1]⟩
abbrev S800000x64 : Shape := ⟨2, ![800000, 64]⟩
abbrev S800000x128 : Shape := ⟨2, ![800000, 128]⟩

abbrev nBuf : Space → Nat
  | .hbm => 103
  | .vmem => 8
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S2x800000, .i32⟩
  | .hbm, ⟨3, _⟩ => ⟨S800000, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S_, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S64x64, .f32⟩
  | .hbm, ⟨24, _⟩ => ⟨S_, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S_, .f32⟩
  | .hbm, ⟨29, _⟩ => ⟨S64x64, .f32⟩
  | .hbm, ⟨30, _⟩ => ⟨S64x64, .f32⟩
  | .hbm, ⟨31, _⟩ => ⟨S64x64, .f32⟩
  | .hbm, ⟨32, _⟩ => ⟨S_, .f32⟩
  | .hbm, ⟨33, _⟩ => ⟨S64x64, .f32⟩
  | .hbm, ⟨34, _⟩ => ⟨S64x64, .f32⟩
  | .hbm, ⟨35, _⟩ => ⟨S_, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S64x64, .f32⟩
  | .hbm, ⟨45, _⟩ => ⟨S64x64, .f32⟩
  | .hbm, ⟨46, _⟩ => ⟨S64x64, .f32⟩
  | .hbm, ⟨47, _⟩ => ⟨S_, .f32⟩
  | .hbm, ⟨48, _⟩ => ⟨S64x64, .f32⟩
  | .hbm, ⟨49, _⟩ => ⟨S64x64, .f32⟩
  | .hbm, ⟨50, _⟩ => ⟨S64x64, .f32⟩
  | .hbm, ⟨51, _⟩ => ⟨S_, .f32⟩
  | .hbm, ⟨52, _⟩ => ⟨S64x64, .f32⟩
  | .hbm, ⟨53, _⟩ => ⟨S64x64, .f32⟩
  | .hbm, ⟨54, _⟩ => ⟨S64x64, .f32⟩
  | .hbm, ⟨55, _⟩ => ⟨S_, .f32⟩
  | .hbm, ⟨56, _⟩ => ⟨S64x64, .f32⟩
  | .hbm, ⟨57, _⟩ => ⟨S64x64, .f32⟩
  | .hbm, ⟨58, _⟩ => ⟨S64x64, .f32⟩
  | .hbm, ⟨59, _⟩ => ⟨S_, .f32⟩
  | .hbm, ⟨60, _⟩ => ⟨S64x64, .f32⟩
  | .hbm, ⟨61, _⟩ => ⟨S64x64, .f32⟩
  | .hbm, ⟨62, _⟩ => ⟨S_, .f32⟩
  | .hbm, ⟨63, _⟩ => ⟨S64x64, .f32⟩
  | .hbm, ⟨64, _⟩ => ⟨S64x64, .f32⟩
  | .hbm, ⟨65, _⟩ => ⟨S_, .f32⟩
  | .hbm, ⟨66, _⟩ => ⟨S64x64, .f32⟩
  | .hbm, ⟨67, _⟩ => ⟨S64x64, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S50000x128, .f32⟩
  | .hbm, ⟨72, _⟩ => ⟨S1x800000, .i32⟩
  | .hbm, ⟨73, _⟩ => ⟨S800000, .i32⟩
  | .hbm, ⟨74, _⟩ => ⟨S1x800000, .i32⟩
  | .hbm, ⟨75, _⟩ => ⟨S800000, .i32⟩
  | .hbm, ⟨76, _⟩ => ⟨S800000, .f32⟩
  | .hbm, ⟨77, _⟩ => ⟨S800000x1, .f32⟩
  | .hbm, ⟨78, _⟩ => ⟨S800000x64, .f32⟩
  | .hbm, ⟨79, _⟩ => ⟨S800000x1, .f32⟩
  | .hbm, ⟨80, _⟩ => ⟨S800000x64, .f32⟩
  | .hbm, ⟨81, _⟩ => ⟨S800000x128, .f32⟩
  | .hbm, ⟨82, _⟩ => ⟨S_, .i32⟩
  | .hbm, ⟨83, _⟩ => ⟨S800000, .i32⟩
  | .hbm, ⟨84, _⟩ => ⟨S800000, .i1⟩
  | .hbm, ⟨85, _⟩ => ⟨S_, .i32⟩
  | .hbm, ⟨86, _⟩ => ⟨S800000, .i32⟩
  | .hbm, ⟨87, _⟩ => ⟨S800000, .i32⟩
  | .hbm, ⟨88, _⟩ => ⟨S800000, .i32⟩
  | .hbm, ⟨89, _⟩ => ⟨S800000x1, .i32⟩
  | .hbm, ⟨90, _⟩ => ⟨S800000x128, .f32⟩
  | .hbm, ⟨91, _⟩ => ⟨S800000x128, .f32⟩
  | .hbm, ⟨92, _⟩ => ⟨S_, .f32⟩
  | .hbm, ⟨93, _⟩ => ⟨S50000x128, .f32⟩
  | .hbm, ⟨94, _⟩ => ⟨S800000x1, .i32⟩
  | .hbm, ⟨95, _⟩ => ⟨S50000x128, .f32⟩
  | .hbm, ⟨96, _⟩ => ⟨S50000x64, .f32⟩
  | .hbm, ⟨97, _⟩ => ⟨S50000x64, .f32⟩
  | .hbm, ⟨98, _⟩ => ⟨S50000x64, .f32⟩
  | .hbm, ⟨99, _⟩ => ⟨S_, .f32⟩
  | .hbm, ⟨100, _⟩ => ⟨S50000x64, .f32⟩
  | .hbm, ⟨101, _⟩ => ⟨S50000x64, .f32⟩
  | .hbm, ⟨102, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S64x64, .f32⟩
  | .local _ .vmem, ⟨5, _⟩ => ⟨S64x64, .f32⟩
  | .local _ .vmem, ⟨6, _⟩ => ⟨S5000x128, .f32⟩
  | .local _ .vmem, ⟨7, _⟩ => ⟨S5000x128, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_cst_4 : Ref sig .tc := ⟨.hbm, 35, rfl⟩
abbrev main_v20 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_cst_7 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_9 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_11 : Ref sig .tc := ⟨.hbm, 59, rfl⟩
abbrev main_v37 : Ref sig .tc := ⟨.hbm, 60, rfl⟩
abbrev main_v38 : Ref sig .tc := ⟨.hbm, 61, rfl⟩
abbrev main_cst_12 : Ref sig .tc := ⟨.hbm, 62, rfl⟩
abbrev main_v39 : Ref sig .tc := ⟨.hbm, 63, rfl⟩
abbrev main_v40 : Ref sig .tc := ⟨.hbm, 64, rfl⟩
abbrev main_cst_13 : Ref sig .tc := ⟨.hbm, 65, rfl⟩
abbrev main_v41 : Ref sig .tc := ⟨.hbm, 66, rfl⟩
abbrev main_v42 : Ref sig .tc := ⟨.hbm, 67, rfl⟩
abbrev main_cst_14 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_c : Ref sig .tc := ⟨.hbm, 82, rfl⟩
abbrev main_v56 : Ref sig .tc := ⟨.hbm, 83, rfl⟩
abbrev main_v57 : Ref sig .tc := ⟨.hbm, 84, rfl⟩
abbrev main_c_15 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_cst_16 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_cst_17 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  bcast_S_S64x64 : S_.BroadcastsInDim S64x64 (![] : Fin 0 → Fin S64x64.rank)
  reducesTo_S64x64_S_d0_1 : S64x64.ReducesTo [0, 1] S_
  h_S_ : 0 < S_.numel
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S5000x128_S5000x64_0_0 : ∀ a, (![0, 0] : Fin 2 → Nat) a + S5000x64.size a ≤ S5000x128.size a
  inb_S5000x128_S5000x64_0_64 : ∀ a, (![0, 64] : Fin 2 → Nat) a + S5000x64.size a ≤ S5000x128.size a
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S800000x1_S800000x64_0_1 : S800000x1.BroadcastsInDim S800000x64 (![0, 1] : Fin 2 → Fin S800000x64.rank)
  concatenates_S800000x64_S800000x64_S800000x128_d1 : Shape.Concatenates [S800000x64, S800000x64] S800000x128 1
  bcast_S_S800000 : S_.BroadcastsInDim S800000 (![] : Fin 0 → Fin S800000.rank)
  bcast_S_S50000x128 : S_.BroadcastsInDim S50000x128 (![] : Fin 0 → Fin S50000x128.rank)
  slices_S50000x128_S50000x64_0_0 : S50000x128.Slices ![0, 0] S50000x64
  slices_S50000x128_S50000x64_0_64 : S50000x128.Slices ![0, 64] S50000x64
  bcast_S_S50000x64 : S_.BroadcastsInDim S50000x64 (![] : Fin 0 → Fin S50000x64.rank)
  dot_S5000x64_S64x64_S5000x64_1_0_0_1_n_n_wf : DotDims.WF S5000x64 S64x64 S5000x64 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S50000x64.size a
  hwx0_1 : ∀ i : grid0.Coords, EltTy.bits .f32 = 32 ∨ (Rect.block (s := S50000x64) S5000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S50000x128.size a
  hwx0_4 : ∀ i : grid0.Coords, EltTy.bits .f32 = 32 ∨ (Rect.block (s := S50000x128) S5000x128.size (cc0_transform_4 i) (hinb0_4 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v45) S5000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000 : Shape := ⟨1, ![800000]⟩
abbrev S64x64 : Shape := ⟨2, ![64, 64]⟩
abbrev S1x800000 : Shape := ⟨2, ![1, 800000]⟩
abbrev S800000x1 : Shape := ⟨2, ![800000, 1]⟩
abbrev S_ : Shape := ⟨0, ![]⟩
abbrev S800000x64 : Shape := ⟨2, ![800000, 64]⟩

abbrev nBuf : Space → Nat
  | .hbm => 122
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x64, .f32⟩
  | .hbm, ⟨2, _⟩ => ⟨S2x800000, .i32⟩
  | .hbm, ⟨3, _⟩ => ⟨S800000, .f32⟩
  | .hbm, ⟨4, _⟩ => ⟨S64x64, .f32⟩
  | .hbm, ⟨5, _⟩ => ⟨S64x64, .f32⟩
  | .hbm, ⟨6, _⟩ => ⟨S64x64, .f32⟩
  | .hbm, ⟨7, _⟩ => ⟨S64x64, .f32⟩
  | .hbm, ⟨8, _⟩ => ⟨S64x64, .f32⟩
  | .hbm, ⟨9, _⟩ => ⟨S64x64, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S50000x64, .f32⟩
  | .hbm, ⟨14, _⟩ => ⟨S1x800000, .i32⟩
  | .hbm, ⟨15, _⟩ => ⟨S800000, .i32⟩
  | .hbm, ⟨16, _⟩ => ⟨S1x800000, .i32⟩
  | .hbm, ⟨17, _⟩ => ⟨S800000, .i32⟩
  | .hbm, ⟨18, _⟩ => ⟨S800000x1, .f32⟩
  | .hbm, ⟨19, _⟩ => ⟨S_, .i32⟩
  | .hbm, ⟨20, _⟩ => ⟨S800000, .i32⟩
  | .hbm, ⟨21, _⟩ => ⟨S800000, .i1⟩
  | .hbm, ⟨22, _⟩ => ⟨S_, .i32⟩
  | .hbm, ⟨23, _⟩ => ⟨S800000, .i32⟩
  | .hbm, ⟨24, _⟩ => ⟨S800000, .i32⟩
  | .hbm, ⟨25, _⟩ => ⟨S800000, .i32⟩
  | .hbm, ⟨26, _⟩ => ⟨S800000x1, .i32⟩
  | .hbm, ⟨27, _⟩ => ⟨S800000x64, .f32⟩
  | .hbm, ⟨28, _⟩ => ⟨S800000x64, .f32⟩
  | .hbm, ⟨29, _⟩ => ⟨S800000x64, .f32⟩
  | .hbm, ⟨30, _⟩ => ⟨S_, .f32⟩
  | .hbm, ⟨31, _⟩ => ⟨S50000x64, .f32⟩
  | .hbm, ⟨32, _⟩ => ⟨S800000x1, .i32⟩
  | .hbm, ⟨33, _⟩ => ⟨S50000x64, .f32⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S_, .f32⟩
  | .hbm, ⟨39, _⟩ => ⟨S64x64, .f32⟩
  | .hbm, ⟨40, _⟩ => ⟨S64x64, .f32⟩
  | .hbm, ⟨41, _⟩ => ⟨S64x64, .f32⟩
  | .hbm, ⟨42, _⟩ => ⟨S_, .f32⟩
  | .hbm, ⟨43, _⟩ => ⟨S64x64, .f32⟩
  | .hbm, ⟨44, _⟩ => ⟨S64x64, .f32⟩
  | .hbm, ⟨45, _⟩ => ⟨S64x64, .f32⟩
  | .hbm, ⟨46, _⟩ => ⟨S_, .f32⟩
  | .hbm, ⟨47, _⟩ => ⟨S64x64, .f32⟩
  | .hbm, ⟨48, _⟩ => ⟨S64x64, .f32⟩
  | .hbm, ⟨49, _⟩ => ⟨S64x64, .f32⟩
  | .hbm, ⟨50, _⟩ => ⟨S_, .f32⟩
  | .hbm, ⟨51, _⟩ => ⟨S_, .f32⟩
  | .hbm, ⟨52, _⟩ => ⟨S64x64, .f32⟩
  | .hbm, ⟨53, _⟩ => ⟨S64x64, .f32⟩
  | .hbm, ⟨54, _⟩ => ⟨S_, .f32⟩
  | .hbm, ⟨55, _⟩ => ⟨S64x64, .f32⟩
  | .hbm, ⟨56, _⟩ => ⟨S64x64, .f32⟩
  | .hbm, ⟨57, _⟩ => ⟨S_, .f32⟩
  | .hbm, ⟨58, _⟩ => ⟨S64x64, .f32⟩
  | .hbm, ⟨59, _⟩ => ⟨S64x64, .f32⟩
  | .hbm, ⟨60, _⟩ => ⟨S_, .f32⟩
  | .hbm, ⟨61, _⟩ => ⟨S_, .f32⟩
  | .hbm, ⟨62, _⟩ => ⟨S50000x64, .f32⟩
  | .hbm, ⟨63, _⟩ => ⟨S64x64, .f32⟩
  | .hbm, ⟨64, _⟩ => ⟨S64x64, .f32⟩
  | .hbm, ⟨65, _⟩ => ⟨S64x64, .f32⟩
  | .hbm, ⟨66, _⟩ => ⟨S800000, .f32⟩
  | .hbm, ⟨67, _⟩ => ⟨S50000x64, .f32⟩
  | .hbm, ⟨68, _⟩ => ⟨S1x800000, .i32⟩
  | .hbm, ⟨69, _⟩ => ⟨S800000, .i32⟩
  | .hbm, ⟨70, _⟩ => ⟨S1x800000, .i32⟩
  | .hbm, ⟨71, _⟩ => ⟨S800000, .i32⟩
  | .hbm, ⟨72, _⟩ => ⟨S800000x1, .f32⟩
  | .hbm, ⟨73, _⟩ => ⟨S_, .i32⟩
  | .hbm, ⟨74, _⟩ => ⟨S800000, .i32⟩
  | .hbm, ⟨75, _⟩ => ⟨S800000, .i1⟩
  | .hbm, ⟨76, _⟩ => ⟨S_, .i32⟩
  | .hbm, ⟨77, _⟩ => ⟨S800000, .i32⟩
  | .hbm, ⟨78, _⟩ => ⟨S800000, .i32⟩
  | .hbm, ⟨79, _⟩ => ⟨S800000, .i32⟩
  | .hbm, ⟨80, _⟩ => ⟨S800000x1, .i32⟩
  | .hbm, ⟨81, _⟩ => ⟨S800000x64, .f32⟩
  | .hbm, ⟨82, _⟩ => ⟨S800000x64, .f32⟩
  | .hbm, ⟨83, _⟩ => ⟨S800000x64, .f32⟩
  | .hbm, ⟨84, _⟩ => ⟨S_, .f32⟩
  | .hbm, ⟨85, _⟩ => ⟨S50000x64, .f32⟩
  | .hbm, ⟨86, _⟩ => ⟨S800000x1, .i32⟩
  | .hbm, ⟨87, _⟩ => ⟨S50000x64, .f32⟩
  | .hbm, ⟨88, _⟩ => ⟨S_, .f32⟩
  | .hbm, ⟨89, _⟩ => ⟨S64x64, .f32⟩
  | .hbm, ⟨90, _⟩ => ⟨S64x64, .f32⟩
  | .hbm, ⟨91, _⟩ => ⟨S64x64, .f32⟩
  | .hbm, ⟨92, _⟩ => ⟨S_, .f32⟩
  | .hbm, ⟨93, _⟩ => ⟨S64x64, .f32⟩
  | .hbm, ⟨94, _⟩ => ⟨S64x64, .f32⟩
  | .hbm, ⟨95, _⟩ => ⟨S64x64, .f32⟩
  | .hbm, ⟨96, _⟩ => ⟨S_, .f32⟩
  | .hbm, ⟨97, _⟩ => ⟨S64x64, .f32⟩
  | .hbm, ⟨98, _⟩ => ⟨S64x64, .f32⟩
  | .hbm, ⟨99, _⟩ => ⟨S64x64, .f32⟩
  | .hbm, ⟨100, _⟩ => ⟨S_, .f32⟩
  | .hbm, ⟨101, _⟩ => ⟨S64x64, .f32⟩
  | .hbm, ⟨102, _⟩ => ⟨S64x64, .f32⟩
  | .hbm, ⟨103, _⟩ => ⟨S64x64, .f32⟩
  | .hbm, ⟨104, _⟩ => ⟨S_, .f32⟩
  | .hbm, ⟨105, _⟩ => ⟨S_, .f32⟩
  | .hbm, ⟨106, _⟩ => ⟨S64x64, .f32⟩
  | .hbm, ⟨107, _⟩ => ⟨S64x64, .f32⟩
  | .hbm, ⟨108, _⟩ => ⟨S_, .f32⟩
  | .hbm, ⟨109, _⟩ => ⟨S64x64, .f32⟩
  | .hbm, ⟨110, _⟩ => ⟨S64x64, .f32⟩
  | .hbm, ⟨111, _⟩ => ⟨S_, .f32⟩
  | .hbm, ⟨112, _⟩ => ⟨S64x64, .f32⟩
  | .hbm, ⟨113, _⟩ => ⟨S64x64, .f32⟩
  | .hbm, ⟨114, _⟩ => ⟨S_, .f32⟩
  | .hbm, ⟨115, _⟩ => ⟨S_, .f32⟩
  | .hbm, ⟨116, _⟩ => ⟨S50000x64, .f32⟩
  | .hbm, ⟨117, _⟩ => ⟨S_, .f32⟩
  | .hbm, ⟨118, _⟩ => ⟨S50000x64, .f32⟩
  | .hbm, ⟨119, _⟩ => ⟨S50000x64, .f32⟩
  | .hbm, ⟨120, _⟩ => ⟨S50000x64, .f32⟩
  | .hbm, ⟨121, _⟩ => ⟨S_, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_1 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_2 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_cst_5 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_6 : Ref sig .tc := ⟨.hbm, 54, rfl⟩
abbrev main_v36 : Ref sig .tc := ⟨.hbm, 55, rfl⟩
abbrev main_v37 : Ref sig .tc := ⟨.hbm, 56, rfl⟩
abbrev main_cst_7 : Ref sig .tc := ⟨.hbm, 57, rfl⟩
abbrev main_v38 : Ref sig .tc := ⟨.hbm, 58, rfl⟩
abbrev main_v39 : Ref sig .tc := ⟨.hbm, 59, rfl⟩
abbrev main_cst_8 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c_9 : Ref sig .tc := ⟨.hbm, 73, rfl⟩
abbrev main_v52 : Ref sig .tc := ⟨.hbm, 74, rfl⟩
abbrev main_v53 : Ref sig .tc := ⟨.hbm, 75, rfl⟩
abbrev main_c_10 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_11 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_12 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_cst_13 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_14 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_15 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_16 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_17 : Ref sig .tc := ⟨.hbm, 108, rfl⟩
abbrev main_v79 : Ref sig .tc := ⟨.hbm, 109, rfl⟩
abbrev main_v80 : Ref sig .tc := ⟨.hbm, 110, rfl⟩
abbrev main_cst_18 : Ref sig .tc := ⟨.hbm, 111, rfl⟩
abbrev main_v81 : Ref sig .tc := ⟨.hbm, 112, rfl⟩
abbrev main_v82 : Ref sig .tc := ⟨.hbm, 113, rfl⟩
abbrev main_cst_19 : Ref sig .tc := ⟨.hbm, 114, rfl⟩
abbrev main_v83 : Ref sig .tc := ⟨.hbm, 115, rfl⟩
abbrev main_v84 : Ref sig .tc := ⟨.hbm, 116, rfl⟩
abbrev main_cst_20 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S800000_S800000x1_0 : S800000.BroadcastsInDim S800000x1 (![0] : Fin 1 → Fin S800000x1.rank)
  bcast_S_S800000 : S_.BroadcastsInDim S800000 (![] : Fin 0 → Fin S800000.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S_S64x64 : S_.BroadcastsInDim S64x64 (![] : Fin 0 → Fin S64x64.rank)
  reducesTo_S64x64_S_d0_1 : S64x64.ReducesTo [0, 1] S_
  h_S_ : 0 < S_.numel
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1

variable [Facts₀]

def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf

class Facts : Prop extends Facts₀ where

variable [Facts]
-- ==== Proof.LibPlainDot.lean ====
/-
  A matrix product with the plain dimension numbers — an n×a operand times an a×b operand, contracted over the one
  shared axis, no batch axis — read at an entry, at the ideal values, for any extents n, a, b.

  At the ideal values a `tpu.matmul` into the zero accumulator and the host's `dot_general` are both the sum, over the
  contraction index, of the products of the two operands' entries. The contraction index of the plain dimension numbers
  is a rank-1 index of extent a; re-indexing the sum by its one coordinate k gives

      (L · R)(p, o) = ∑ k < a, L(p, k) · R(k, o).

  A dimension-number record of a printed program that lists the same six axis lists IS `DotDims.plain n a b` (the
  record's other field is a proof), by `rfl`.
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {n a b : ℕ}

/-- The plain dimension numbers contract one axis … -/
theorem contr_rank : (DotDims.plain n a b).contr.rank = 1 := rfl

/-- … of extent `a`. -/
theorem contr_size : (DotDims.plain n a b).contr.size ⟨0, by rw [contr_rank]; exact Nat.one_pos⟩ = a := rfl

/-- The left operand is read at row `i 0` … -/
theorem lhs_row (i : (⟨2, ![n, b]⟩ : Shape).Idx) (q : (DotDims.plain n a b).contr.Idx) :
    ((DotDims.plain n a b).lhsIdx i q (0 : Fin 2)).val = (i 0).val := rfl

/-- … and at the contraction position's column; -/
theorem lhs_col (i : (⟨2, ![n, b]⟩ : Shape).Idx) (q : (DotDims.plain n a b).contr.Idx) :
    ((DotDims.plain n a b).lhsIdx i q (1 : Fin 2)).val = (q ⟨0, by rw [contr_rank]; exact Nat.one_pos⟩).val :=
  (DotDims.plain n a b).lhsIdx_val_of_single rfl i q

/-- the right operand at the contraction position's row … -/
theorem rhs_row (i : (⟨2, ![n, b]⟩ : Shape).Idx) (q : (DotDims.plain n a b).contr.Idx) :
    ((DotDims.plain n a b).rhsIdx i q (0 : Fin 2)).val = (q ⟨0, by rw [contr_rank]; exact Nat.one_pos⟩).val :=
  (DotDims.plain n a b).rhsIdx_val_of_single rfl i q

/-- … and at column `i 1`. -/
theorem rhs_col (i : (⟨2, ![n, b]⟩ : Shape).Idx) (q : (DotDims.plain n a b).contr.Idx) :
    ((DotDims.plain n a b).rhsIdx i q (1 : Fin 2)).val = (i 1).val := rfl

/-- The sum over the contraction index of the plain dimension numbers, re-indexed by its one coordinate. -/
theorem sum_contr (L : FVec Ideal ⟨2, ![n, a]⟩ .f32) (R : FVec Ideal ⟨2, ![a, b]⟩ .f32) (p : Fin n) (o : Fin b) :
    (∑ q : (DotDims.plain n a b).contr.Idx,
        L ((DotDims.plain n a b).lhsIdx (ix2 p o) q) * R ((DotDims.plain n a b).rhsIdx (ix2 p o) q))
      = ∑ k : Fin a, L (ix2 p k) * R (ix2 k o) := by
  rw [← Equiv.sum_comp (contrEquiv1 (DotDims.plain n a b) a contr_rank contr_size).symm]
  refine Finset.sum_congr rfl fun k _ => ?_
  have hk := contrEquiv1_symm_val (DotDims.plain n a b) a contr_rank contr_size k
  have el : (DotDims.plain n a b).lhsIdx (ix2 p o) ((contrEquiv1 (DotDims.plain n a b) a contr_rank contr_size).symm k)
      = ix2 p k := funext fun c => Fin.ext (by
    match c with
    | ⟨0, _⟩ => exact lhs_row _ _
    | ⟨1, _⟩ => exact (lhs_col _ _).trans hk)
  have er : (DotDims.plain n a b).rhsIdx (ix2 p o) ((contrEquiv1 (DotDims.plain n a b) a contr_rank contr_size).symm k)
      = ix2 k o := funext fun c => Fin.ext (by
    match c with
    | ⟨0, _⟩ => exact (rhs_row _ _).trans hk
    | ⟨1, _⟩ => exact rhs_col _ _)
  rw [el, er]

/-- A `tpu.matmul` with the plain dimension numbers into the zero accumulator, at entry (p, o). -/
theorem matmul_zero_apply (prec : Option ContractPrecision) (L : FVec Ideal ⟨2, ![n, a]⟩ .f32)
    (R : FVec Ideal ⟨2, ![a, b]⟩ .f32) (p : Fin n) (o : Fin b) :
    matmul (DotDims.plain n a b) prec L R (constant ⟨2, ![n, b]⟩ .f32 0x00000000#32) (ix2 p o)
      = ∑ k : Fin a, L (ix2 p k) * R (ix2 k o) :=
  (Ideal.matmul_constant_zero_apply (DotDims.plain n a b) prec L R (ix2 p o)).trans (sum_contr L R p o)

/-- The host's `dot_general` with the plain dimension numbers, at entry (p, o). -/
theorem dotGeneral_apply (prec : Option ContractPrecision) (L : FVec Ideal ⟨2, ![n, a]⟩ .f32)
    (R : FVec Ideal ⟨2, ![a, b]⟩ .f32) (p : Fin n) (o : Fin b) :
    Host.dotGeneral (DotDims.plain n a b) prec L R (ix2 p o) = ∑ k : Fin a, L (ix2 p k) * R (ix2 k o) := by
  simp only [Host.dotGeneral]
  exact (Ideal.dotGeneral_apply (DotDims.plain n a b) prec _ L R (ix2 p o)).trans (sum_contr L R p o)

end Cert.LibPlainDot

end
-- ==== Proof.Spec.lean ====
/-
  The array the node kernel produces, as one function of its four operands.

  For node features `X` and `Y` (50000 × 64) and two weight matrices `Wm`, `Ws` (64 × 64), the kernel's one output is
  50000 × 128: its left 64 columns hold the product `X · Wm`, its right 64 columns the product of the entrywise squares
  of `Y` with `Ws`. Each entry is a sum of 64 products of extended reals; no rounding enters, so the bf16 operands of
  the products are the f32 operands themselves.
-/
import Idealize.ShloMosaic.Lib.ValueIdx
import Idealize.ShloMosaic.PureOps.Ideal

noncomputable section

open scoped BigOperators

namespace Cert.Spec

open Idealize.ShloMosaic Idealize.ShloMosaic.ValueIdx

/-- Entry `(r, c)` of the matrix product `X · W`. -/
def prod (X : FVec Ideal ⟨2, ![50000, 64]⟩ .f32) (W : FVec Ideal ⟨2, ![64, 64]⟩ .f32) (r : Fin 50000) (c : Fin 64) : EReal :=
  ∑ k : Fin 64, X (ix2 r k) * W (ix2 k c)

/-- The two products side by side: columns `[0, 64)` are `X · Wm`, columns `[64, 128)` are `(Y ∘ Y) · Ws`. -/
def suppCat (X Y : FVec Ideal ⟨2, ![50000, 64]⟩ .f32) (Wm Ws : FVec Ideal ⟨2, ![64, 64]⟩ .f32) :
    FVec Ideal ⟨2, ![50000, 128]⟩ .f32 := fun i =>
  if h : (i 1).val < 64 then prod X Wm (i 0) ⟨(i 1).val, h⟩
  else prod (mulf Y Y) Ws (i 0) ⟨(i 1).val - 64, by have := idx2_lt1 i; omega⟩

/-- A left column of the pair is a column of the first product. -/
theorem suppCat_left (X Y : FVec Ideal ⟨2, ![50000, 64]⟩ .f32) (Wm Ws : FVec Ideal ⟨2, ![64, 64]⟩ .f32)
    (r : Fin 50000) (c : Fin 64) (c' : Fin 128) (hc : c'.val = c.val) :
    suppCat X Y Wm Ws (ix2 r c') = prod X Wm r c := by
  have hlt : ((ix2 r c' : (⟨2, ![50000, 128]⟩ : Shape).Idx) 1).val < 64 := by
    show c'.val < 64
    have := c.isLt; omega
  unfold suppCat
  rw [dif_pos hlt]
  exact congrArg (prod X Wm r) (Fin.ext hc)

/-- A right column of the pair is a column of the second product. -/
theorem suppCat_right (X Y : FVec Ideal ⟨2, ![50000, 64]⟩ .f32) (Wm Ws : FVec Ideal ⟨2, ![64, 64]⟩ .f32)
    (r : Fin 50000) (c : Fin 64) (c' : Fin 128) (hc : c'.val = 64 + c.val) :
    suppCat X Y Wm Ws (ix2 r c') = prod (mulf Y Y) Ws r c := by
  have hge : ¬ ((ix2 r c' : (⟨2, ![50000, 128]⟩ : Shape).Idx) 1).val < 64 := by
    show ¬ c'.val < 64
    omega
  unfold suppCat
  rw [dif_neg hge]
  exact congrArg (prod (mulf Y Y) Ws r) (Fin.ext (by show c'.val - 64 = c.val; omega))

end Cert.Spec

end
-- ==== Proof.KernelBlock.lean ====
/-
  What the node kernel leaves in its output array.

  The grid has ten points; point `t` loads rows `[5000 t, 5000 t + 5000)` of the two node-feature arrays and both weight
  matrices whole, and stores two 5000 × 64 tiles side by side into its 5000 × 128 output block: on the left the product
  of the feature rows with the first weight matrix, on the right the product of their entrywise squares with the second.
  At the extended reals the bf16 operands are the f32 operands and a product into the zero accumulator is the plain sum
  over the 64 contraction positions, so entry `(p, o)` of the block is one such sum of the block's own rows. Row `p` of
  block `t` is row `5000 t + p` of the array, the ten blocks cover all 50000 rows, and therefore the whole output array
  is `Spec.suppCat` of the four operands as the region finds them.
-/
import proofs.«163925_j46308337386025_2_alg».proof.Proof.Gen.KernelIdeal.Frame
import proofs.«163925_j46308337386025_2_alg».proof.Proof.LibPlainDot
import proofs.«163925_j46308337386025_2_alg».proof.Proof.Spec
import Idealize.ShloMosaic.Lib.Pipeline.Value
import Idealize.ShloMosaic.Lib.ValueIdx

set_option maxRecDepth 16384

noncomputable section

open scoped BigOperators

namespace Cert.KernelIdeal.NodeBlocks

open Cert.KernelIdeal Cert.KernelIdeal.Gen Idealize.ShloMosaic Idealize.ShloMosaic.TcCoe Idealize.SL.Sem
open Idealize.ShloMosaic.ValueIdx
open Idealize.ShloMosaic.Pipeline (Dat)

/-! ## The two stored tiles at an entry -/

/-- The left tile: rows of the first operand times the first weight matrix. -/
theorem pay1_apply (x0 : Vec Ideal S5000x64 .f32) (x2 : Vec Ideal S64x64 .f32) (p : Fin 5000) (o : Fin 64) :
    k0_pay1 (F := Ideal) x0 x2 (ix2 p o) = ∑ k : Fin 64, x0 (ix2 p k) * x2 (ix2 k o) := by
  unfold k0_pay1
  show matmul (F := Ideal) dot_S5000x64_S64x64_S5000x64_1_0_0_1_n_n none (truncf .bf16 (x0 : FVec Ideal S5000x64 .f32) bitsLt_bf16_f32)
      (truncf .bf16 (shapeCast S64x64 (x2 : FVec Ideal S64x64 .f32) shapeCasts_S64x64_S64x64) bitsLt_bf16_f32)
      (constant S5000x64 .f32 0x00000000#32) (ix2 p o) = _
  rw [shapeCast_self]
  refine (Ideal.matmul_constant_zero_apply _ none _ _ (ix2 p o)).trans ?_
  exact Cert.LibPlainDot.sum_contr (n := 5000) (a := 64) (b := 64) x0 x2 p o

/-- The right tile: the entrywise squares of the second operand's rows times the second weight matrix. -/
theorem pay2_apply (x1 : Vec Ideal S5000x64 .f32) (x3 : Vec Ideal S64x64 .f32) (p : Fin 5000) (o : Fin 64) :
    k0_pay2 (F := Ideal) x1 x3 (ix2 p o) = ∑ k : Fin 64, (x1 (ix2 p k) * x1 (ix2 p k)) * x3 (ix2 k o) := by
  unfold k0_pay2
  show matmul (F := Ideal) dot_S5000x64_S64x64_S5000x64_1_0_0_1_n_n none
      (truncf .bf16 (mulf (x1 : FVec Ideal S5000x64 .f32) (x1 : FVec Ideal S5000x64 .f32)) bitsLt_bf16_f32)
      (truncf .bf16 (shapeCast S64x64 (x3 : FVec Ideal S64x64 .f32) shapeCasts_S64x64_S64x64) bitsLt_bf16_f32)
      (constant S5000x64 .f32 0x00000000#32) (ix2 p o) = _
  rw [shapeCast_self]
  refine (Ideal.matmul_constant_zero_apply _ none _ _ (ix2 p o)).trans ?_
  exact Cert.LibPlainDot.sum_contr (n := 5000) (a := 64) (b := 64) (mulf x1 x1) x3 p o

/-! ## The block as one function of the loaded blocks -/

/-- The 5000 × 128 block: the left tile in columns `[0, 64)`, the right tile in columns `[64, 128)`. -/
def blockG (x0 x1 : Vec Ideal S5000x64 .f32) (x2 x3 : Vec Ideal S64x64 .f32) : S5000x128.Idx → EReal := fun y =>
  if h : (y 1).val < 64 then ∑ k : Fin 64, x0 (ix2 (y 0) k) * x2 (ix2 k ⟨(y 1).val, h⟩)
  else ∑ k : Fin 64, (x1 (ix2 (y 0) k) * x1 (ix2 (y 0) k)) * x3 (ix2 k ⟨(y 1).val - 64, by have := idx2_lt1 y; omega⟩)

theorem blockG_left (x0 x1 : Vec Ideal S5000x64 .f32) (x2 x3 : Vec Ideal S64x64 .f32) (p : Fin 5000) (o : Fin 64)
    (y : S5000x128.Idx) (h0 : (y 0).val = p.val) (h1 : (y 1).val = o.val) :
    blockG x0 x1 x2 x3 y = ∑ k : Fin 64, x0 (ix2 p k) * x2 (ix2 k o) := by
  have hlt : (y 1).val < 64 := by have := o.isLt; omega
  unfold blockG
  rw [dif_pos hlt]
  refine Finset.sum_congr rfl fun k _ => ?_
  rw [show y 0 = p from Fin.ext h0, show (⟨(y 1).val, hlt⟩ : Fin 64) = o from Fin.ext h1]

theorem blockG_right (x0 x1 : Vec Ideal S5000x64 .f32) (x2 x3 : Vec Ideal S64x64 .f32) (p : Fin 5000) (o : Fin 64)
    (y : S5000x128.Idx) (h0 : (y 0).val = p.val) (h1 : (y 1).val = 64 + o.val) :
    blockG x0 x1 x2 x3 y = ∑ k : Fin 64, (x1 (ix2 p k) * x1 (ix2 p k)) * x3 (ix2 k o) := by
  have hge : ¬ (y 1).val < 64 := by omega
  unfold blockG
  rw [dif_neg hge]
  refine Finset.sum_congr rfl fun k _ => ?_
  rw [show y 0 = p from Fin.ext h0,
    show (⟨(y 1).val - 64, by have := idx2_lt1 y; omega⟩ : Fin 64) = o from Fin.ext (by show (y 1).val - 64 = o.val; omega)]

theorem hz : (![0, 0] : Fin 2 → Nat) = fun _ => 0 := funext fun a => by fin_cases a <;> rfl

/-- What the body leaves in the output block is `blockG` of the four loaded blocks: each of the two stores holds the
    tile of `blockG` its rectangle names, and the two rectangles cover the block. -/
theorem out_apply (x0 x1 : Vec Ideal S5000x64 .f32) (x2 x3 : Vec Ideal S64x64 .f32) (y : S5000x128.Idx) :
    out0_4 (F := Ideal) x0 x1 x2 x3 y = blockG x0 x1 x2 x3 y := by
  unfold out0_4
  simp only [View.ld_unit_zero (S := S5000x64) hz, View.ld_unit_zero (S := S64x64) hz]
  refine View.canon_apply_of_pieces (Val := Elt Ideal) (S := S5000x128) (e := .f32) (blockG x0 x1 x2 x3) _ ?_ y (cover0_4 _ _ y)
  refine List.forall_mem_cons.mpr ⟨?_, List.forall_mem_cons.mpr ⟨?_, fun _ h => absurd h List.not_mem_nil⟩⟩
  · intro x
    obtain ⟨p, o, rfl⟩ : ∃ (p : Fin 5000) (o : Fin 64), x = ix2 p o := ⟨x 0, x 1, eq_ix2 (n0 := 5000) (n1 := 64) x⟩
    show k0_pay2 (F := Ideal) x1 x3 (ix2 p o) = _
    rw [pay2_apply]
    refine (blockG_right x0 x1 x2 x3 p o _ ?_ ?_).symm
    · show 0 + 1 * p.val = p.val; omega
    · show 64 + 1 * o.val = 64 + o.val; omega
  · intro x
    obtain ⟨p, o, rfl⟩ : ∃ (p : Fin 5000) (o : Fin 64), x = ix2 p o := ⟨x 0, x 1, eq_ix2 (n0 := 5000) (n1 := 64) x⟩
    show k0_pay1 (F := Ideal) x0 x2 (ix2 p o) = _
    rw [pay1_apply]
    refine (blockG_left x0 x1 x2 x3 p o _ ?_ ?_).symm
    · show 0 + 1 * p.val = p.val; omega
    · show 0 + 1 * o.val = o.val; omega

/-! ## A block against the whole array -/

/-- The block built from rows `[5000 q, 5000 q + 5000)` of the node arrays and from the whole weight matrices is the
    corresponding block of `Spec.suppCat`. -/
theorem blockG_eq_suppCat (X Y : FVec Ideal ⟨2, ![50000, 64]⟩ .f32) (Wm Ws : FVec Ideal ⟨2, ![64, 64]⟩ .f32)
    (x0 x1 : Vec Ideal S5000x64 .f32) (x2 x3 : Vec Ideal S64x64 .f32) (q : Nat)
    (h0 : ∀ (p : Fin 5000) (k : Fin 64) (r : Fin 50000), r.val = q * 5000 + p.val → x0 (ix2 p k) = X (ix2 r k))
    (h1 : ∀ (p : Fin 5000) (k : Fin 64) (r : Fin 50000), r.val = q * 5000 + p.val → x1 (ix2 p k) = Y (ix2 r k))
    (h2 : ∀ (k o : Fin 64), x2 (ix2 k o) = Wm (ix2 k o))
    (h3 : ∀ (k o : Fin 64), x3 (ix2 k o) = Ws (ix2 k o))
    (y : S5000x128.Idx) (i : (⟨2, ![50000, 128]⟩ : Shape).Idx)
    (hi0 : (i 0).val = q * 5000 + (y 0).val) (hi1 : (i 1).val = (y 1).val) :
    blockG x0 x1 x2 x3 y = Cert.Spec.suppCat X Y Wm Ws i := by
  obtain ⟨r, c', rfl⟩ : ∃ (r : Fin 50000) (c' : Fin 128), i = ix2 r c' := ⟨i 0, i 1, eq_ix2 i⟩
  have hr : r.val = q * 5000 + (y 0).val := hi0
  have hc : c'.val = (y 1).val := hi1
  by_cases hlt : (y 1).val < 64
  · rw [blockG_left x0 x1 x2 x3 (y 0) ⟨(y 1).val, hlt⟩ y rfl rfl,
      Cert.Spec.suppCat_left X Y Wm Ws r ⟨(y 1).val, hlt⟩ c' hc]
    unfold Cert.Spec.prod
    exact Finset.sum_congr rfl fun k _ => by rw [h0 (y 0) k r hr, h2]
  · have hy := idx2_lt1 y
    rw [blockG_right x0 x1 x2 x3 (y 0) ⟨(y 1).val - 64, by omega⟩ y rfl (by show (y 1).val = 64 + ((y 1).val - 64); omega),
      Cert.Spec.suppCat_right X Y Wm Ws r ⟨(y 1).val - 64, by omega⟩ c' (by show c'.val = 64 + ((y 1).val - 64); omega)]
    unfold Cert.Spec.prod
    exact Finset.sum_congr rfl fun k _ => by rw [mulf_apply, h1 (y 0) k r hr, h3]

variable (m : (ℓ : Loc nD τ sig) → Buf (Elt Ideal) ℓ)

/-- The printed index maps, decided over the ten points: the node windows move with the output window along the rows,
    the weight windows stay put, and no window moves along the columns. -/
theorem idx_facts : ∀ t : Fin cfg0.N,
    win0_0.index t (0 : Fin 2) = win0_4.index t (0 : Fin 2) ∧ win0_0.index t (1 : Fin 2) = 0
    ∧ win0_1.index t (0 : Fin 2) = win0_4.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (1 : Fin 2) = 0 ∧ win0_4.index t (0 : Fin 2) ≤ 9 :=
  (by decide +kernel : ∀ t : Fin grid0.N, _)

/-- Every one of the ten row blocks is some point's. -/
theorem idx_onto : ∀ q0 : Fin 10, ∃ t : Fin cfg0.N, win0_4.index t = ![q0.val, 0] :=
  (by decide +kernel : ∀ q0 : Fin 10, ∃ t : Fin grid0.N, win0_4.index t = ![q0.val, 0])

/-- Point `t`'s output block, computed from the blocks of ANY four arrays read through the four input windows, is block
    `t` of `Spec.suppCat` of those arrays: row `p` of a node block is row `5000 t + p` of its array, and a weight block is
    its whole matrix. -/
theorem block_of_arrays (t : Fin cfg0.N)
    (A0 A1 : (⟨S50000x64, .f32⟩ : BufTy).Contents (Elt Ideal)) (A2 A3 : (⟨S64x64, .f32⟩ : BufTy).Contents (Elt Ideal))
    (j : S5000x128.Idx) :
    out0_4 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3) j
      = Cert.Spec.suppCat A0 A1 A2 A3 (((cfg0.win 4).blk t).view.emb j) := by
  obtain ⟨e0, e1, e2, e3, e4, e5, e6, e7, e8, e9⟩ := idx_facts t
  refine (out_apply _ _ _ _ j).trans ?_
  refine blockG_eq_suppCat A0 A1 A2 A3 _ _ _ _ (win0_4.index t (0 : Fin 2)) ?_ ?_ ?_ ?_ j
    (((cfg0.win 4).blk t).view.emb j) ?_ ?_
  · intro p k r hr
    show A0 (((cfg0.win 0).blk t).view.emb (ix2 p k)) = A0 (ix2 r k)
    refine congrArg A0 (funext fun a => Fin.ext ?_)
    match a with
    | ⟨0, _⟩ => show win0_0.index t (0 : Fin 2) * 5000 + 1 * p.val = r.val; omega
    | ⟨1, _⟩ => show win0_0.index t (1 : Fin 2) * 64 + 1 * k.val = k.val; omega
  · intro p k r hr
    show A1 (((cfg0.win 1).blk t).view.emb (ix2 p k)) = A1 (ix2 r k)
    refine congrArg A1 (funext fun a => Fin.ext ?_)
    match a with
    | ⟨0, _⟩ => show win0_1.index t (0 : Fin 2) * 5000 + 1 * p.val = r.val; omega
    | ⟨1, _⟩ => show win0_1.index t (1 : Fin 2) * 64 + 1 * k.val = k.val; omega
  · intro k o
    show A2 (((cfg0.win 2).blk t).view.emb (ix2 k o)) = A2 (ix2 k o)
    refine congrArg A2 (funext fun a => Fin.ext ?_)
    match a with
    | ⟨0, _⟩ => show win0_2.index t (0 : Fin 2) * 64 + 1 * k.val = k.val; omega
    | ⟨1, _⟩ => show win0_2.index t (1 : Fin 2) * 64 + 1 * o.val = o.val; omega
  · intro k o
    show A3 (((cfg0.win 3).blk t).view.emb (ix2 k o)) = A3 (ix2 k o)
    refine congrArg A3 (funext fun a => Fin.ext ?_)
    match a with
    | ⟨0, _⟩ => show win0_3.index t (0 : Fin 2) * 64 + 1 * k.val = k.val; omega
    | ⟨1, _⟩ => show win0_3.index t (1 : Fin 2) * 64 + 1 * o.val = o.val; omega
  · show win0_4.index t (0 : Fin 2) * 5000 + 1 * (j 0).val = win0_4.index t (0 : Fin 2) * 5000 + (j 0).val; omega
  · show win0_4.index t (1 : Fin 2) * 128 + 1 * (j 1).val = (j 1).val; omega

/-- WHAT POINT `t` WRITES BACK is block `t` of `Spec.suppCat` of the arrays as the region finds them. -/
theorem flushed_eq (c : Dev nD) (t : Fin cfg0.N) :
    (dats m 0 c).flushed 4 t = ((cfg0.win 4).blk t).view.read (Elt Ideal)
      (Cert.Spec.suppCat (V m c (Pipeline.arrRef spec0 0)) (V m c (Pipeline.arrRef spec0 1))
        (V m c (Pipeline.arrRef spec0 2)) (V m c (Pipeline.arrRef spec0 3))) := by
  show (cfg0.win 4).cut (grid0.coords t) ((dats m 0 c).after 4 t) = _
  rw [after0_4]
  funext j
  exact block_of_arrays t (V m c (Pipeline.arrRef spec0 0)) (V m c (Pipeline.arrRef spec0 1))
    (V m c (Pipeline.arrRef spec0 2)) (V m c (Pipeline.arrRef spec0 3)) j

/-- An index of the array is in point `t`'s block iff each coordinate is in the block's range on its axis. -/
theorem mem_blk (t : Fin cfg0.N) (i : S50000x128.Idx) :
    i ∈ ((cfg0.win 4).blk t).view.set ↔ ∀ a : Fin 2, win0_4.index t a * S5000x128.size a ≤ (i a).val
      ∧ (i a).val < win0_4.index t a * S5000x128.size a + S5000x128.size a := by
  show i ∈ ((View.whole main_v45).slice (win0_4.rect t)).set ↔ _
  rw [View.set_slice_whole, Rect.mem_set_unit]
  exact Iff.rfl

/-- The ten blocks cover the array: row `r` lies in the block of point `r / 5000`. -/
theorem cover (i : S50000x128.Idx) :
    ∃ t : Fin cfg0.N, (cfg0.win 4).flush t = true ∧ i ∈ ((cfg0.win 4).blk t).view.set := by
  have hi0 : (i 0).val < 50000 := (i 0).isLt
  have hi1 : (i 1).val < 128 := (i 1).isLt
  obtain ⟨t, ht⟩ := idx_onto ⟨(i 0).val / 5000, by omega⟩
  have q0 : win0_4.index t (0 : Fin 2) = (i 0).val / 5000 := congrFun ht 0
  have q1 : win0_4.index t (1 : Fin 2) = 0 := congrFun ht 1
  refine ⟨t, flush0_4 t, ?_⟩
  rw [mem_blk]
  intro a
  match a with
  | ⟨0, _⟩ =>
    show win0_4.index t (0 : Fin 2) * 5000 ≤ (i 0).val ∧ (i 0).val < win0_4.index t (0 : Fin 2) * 5000 + 5000
    omega
  | ⟨1, _⟩ =>
    show win0_4.index t (1 : Fin 2) * 128 ≤ (i 1).val ∧ (i 1).val < win0_4.index t (1 : Fin 2) * 128 + 128
    omega

/-- THE OUTPUT ARRAY after the region: `Spec.suppCat` of the four operands as the region finds them. -/
theorem final (c : Dev nD) : (dats m 0 c).arrAt 4 cfg0.N
    = Cert.Spec.suppCat (V m c (Pipeline.arrRef spec0 0)) (V m c (Pipeline.arrRef spec0 1))
        (V m c (Pipeline.arrRef spec0 2)) (V m c (Pipeline.arrRef spec0 3)) :=
  (dats m 0 c).arrAt_eq_of_cover 4 _ (fun t _ => flushed_eq m c t) (cover)

end Cert.KernelIdeal.NodeBlocks

end
-- ==== Proof.RefTerms.lean ====
/-
  The reference's three results, named piece by piece.

  Both weight matrices are `mu + eps · exp(log_sigma)`. A propagation takes a node table `T` (50000 × 64) and an edge
  weight vector `w`: every edge reads the table row of its source node (the source word wrapped once when negative, then
  read signed and clamped into the table), scales it by the edge's weight, and the scaled rows are summed into the rows of
  their target nodes, starting from zero. The new mean is the propagation of `mean · W_mean` under the edge weights; the
  new standard deviation is `sqrt(exp(·) + 1e-6)` of the propagation of `std² · W_std` under the squared edge weights; the
  third result is the sum of the two weight matrices' KL terms, each the sum over the 64 × 64 entries of
  `½ (exp(2 ls) / 1 + mu² / 1 − 2 ls − ℓ − 1)`, where `ℓ` is the logarithm of the prior variance.
-/
import proofs.«163925_j46308337386025_2_alg».proof.Proof.Gen.ReferenceIdeal
import Idealize.ShloMosaic.PureOps.Ideal

noncomputable section

namespace Cert.ReferenceIdeal.Terms

open Cert.ReferenceIdeal Cert.ReferenceIdeal.Gen Idealize.ShloMosaic

/-- Row 0 of the edge list: the source words. -/
def srcWords (a2 : IVec S2x800000 32) : IVec S800000 32 :=
  shapeCast _ (extractStridedSlice S1x800000 ![0, 0] a2 slices_S2x800000_S1x800000_0_0) shapeCasts_S1x800000_S800000

/-- The source words as the gather reads them: a negative word wrapped once by the table's height, as a column. -/
def srcCol (a2 : IVec S2x800000 32) : IVec S800000x1 32 :=
  broadcastInDim S800000x1 ![0] bcast_S800000_S800000x1_0
    (select (cmpi .slt (srcWords a2) (broadcastInDim S800000 ![] bcast_S_S800000 (constantI S_ 32 0#32)))
      (addi (srcWords a2) (broadcastInDim S800000 ![] bcast_S_S800000 (constantI S_ 32 50000#32))) (srcWords a2))

/-- Row 1 of the edge list, the target words, as a column. -/
def dstCol (a2 : IVec S2x800000 32) : IVec S800000x1 32 :=
  broadcastInDim S800000x1 ![0] bcast_S800000_S800000x1_0
    (shapeCast _ (extractStridedSlice S1x800000 ![1, 0] a2 slices_S2x800000_S1x800000_1_0) shapeCasts_S1x800000_S800000)

/-- An edge weight vector spread along 64 columns. -/
def scale (w : FVec Ideal S800000 .f32) : FVec Ideal S800000x64 .f32 :=
  broadcastInDim S800000x64 ![0, 1] bcast_S800000x1_S800000x64_0_1 (broadcastInDim S800000x1 ![0] bcast_S800000_S800000x1_0 w)

/-- One propagation: rows of `T` read at the edges' sources, scaled by `w`, summed at the edges' targets. -/
def agg (T : FVec Ideal S50000x64 .f32) (w : FVec Ideal S800000 .f32) (gi si : IVec S800000x1 32) : FVec Ideal S50000x64 .f32 :=
  Host.scatterAdd scatter_S50000x64_S800000x1_S800000x64_1_0_0_1
    (broadcastInDim S50000x64 ![] bcast_S_S50000x64 (constant S_ .f32 0x00000000#32)) si
    (mulf (scale w) (Host.gather gather_S50000x64_S800000x1_S800000x64_1_0_n_n_0_1_164 T gi))

/-- A sampled weight matrix. -/
def weight (mu eps ls : FVec Ideal S64x64 .f32) : FVec Ideal S64x64 .f32 := addf mu (mulf eps (Host.exp ls))

/-- The new mean. -/
def newMean (a0 : FVec Ideal S50000x64 .f32) (a2 : IVec S2x800000 32) (a3 : FVec Ideal S800000 .f32)
    (a4 a5 a6 : FVec Ideal S64x64 .f32) : FVec Ideal S50000x64 .f32 :=
  agg (Host.dotGeneral dot_S50000x64_S64x64_S50000x64_1_0_0_1_n_n none a0 (weight a4 a6 a5)) a3 (srcCol a2) (dstCol a2)

/-- The new standard deviation. -/
def newStd (a1 : FVec Ideal S50000x64 .f32) (a2 : IVec S2x800000 32) (a3 : FVec Ideal S800000 .f32)
    (a7 a8 a9 : FVec Ideal S64x64 .f32) : FVec Ideal S50000x64 .f32 :=
  Host.sqrt (addf (Host.exp (agg (Host.dotGeneral dot_S50000x64_S64x64_S50000x64_1_0_0_1_n_n none (mulf a1 a1) (weight a7 a9 a8))
      (mulf a3 a3) (srcCol a2) (dstCol a2)))
    (broadcastInDim S50000x64 ![] bcast_S_S50000x64 (constant S_ .f32 0x358637BD#32)))

/-- One weight matrix's KL term, with the logarithm of the prior variance as the scalar `lp`. -/
def klTerm (mu ls : FVec Ideal S64x64 .f32) (lp : FVec Ideal S_ .f32) : FVec Ideal S_ .f32 :=
  Host.reduceAdd (mulf (broadcastInDim S64x64 ![] bcast_S_S64x64 (constant S_ .f32 0x3F000000#32))
    (subf (subf (subf (addf (Host.divf (Host.exp (mulf (broadcastInDim S64x64 ![] bcast_S_S64x64 (constant S_ .f32 0x40000000#32)) ls))
        (broadcastInDim S64x64 ![] bcast_S_S64x64 (constant S_ .f32 0x3F800000#32)))
      (Host.divf (mulf mu mu) (broadcastInDim S64x64 ![] bcast_S_S64x64 (constant S_ .f32 0x3F800000#32))))
      (mulf (broadcastInDim S64x64 ![] bcast_S_S64x64 (constant S_ .f32 0x40000000#32)) ls))
      (broadcastInDim S64x64 ![] bcast_S_S64x64 lp))
      (broadcastInDim S64x64 ![] bcast_S_S64x64 (constant S_ .f32 0x3F800000#32))))
    (constant S_ .f32 0x00000000#32) reducesTo_S64x64_S_d0_1 h_S_

/-- The total KL. -/
def kl (a4 a5 a7 a8 : FVec Ideal S64x64 .f32) (lp : FVec Ideal S_ .f32) : FVec Ideal S_ .f32 :=
  addf (klTerm a4 a5 lp) (klTerm a7 a8 lp)

end Cert.ReferenceIdeal.Terms

end
-- ==== Proof.LibConcatRead.lean ====
/-
  A join of two or three arrays along an axis, with the arrays as plain arguments.

  The library's join takes its pieces as a list of pairs (a shape, an array) together with a proof about the list of
  shapes. Stated over the pieces one by one — the proof first, the arrays after it — the same join can be rewritten
  piece by piece. Each form is the other by definition.
-/
import Idealize.ShloMosaic.PureOps.Ideal

noncomputable section

namespace Cert.LibConcatRead

open Idealize.ShloMosaic

/-- Two arrays joined along axis `a`. -/
def cat2 {α : Type} (t : Shape) (a : Fin t.rank) (S1 S2 : Shape) (hc : Shape.Concatenates [S1, S2] t a)
    (x1 : S1.Idx → α) (x2 : S2.Idx → α) : t.Idx → α :=
  concatenate t a [⟨S1, x1⟩, ⟨S2, x2⟩] hc

/-- Three arrays joined along axis `a`. -/
def cat3 {α : Type} (t : Shape) (a : Fin t.rank) (S1 S2 S3 : Shape) (hc : Shape.Concatenates [S1, S2, S3] t a)
    (x1 : S1.Idx → α) (x2 : S2.Idx → α) (x3 : S3.Idx → α) : t.Idx → α :=
  concatenate t a [⟨S1, x1⟩, ⟨S2, x2⟩, ⟨S3, x3⟩] hc

/-- The library's join of two pieces is `cat2` of them. -/
theorem cat2_intro {α : Type} (t : Shape) (a : Fin t.rank) (S1 S2 : Shape) (hc : Shape.Concatenates [S1, S2] t a)
    (x1 : S1.Idx → α) (x2 : S2.Idx → α) :
    concatenate t a [⟨S1, x1⟩, ⟨S2, x2⟩] hc = cat2 t a S1 S2 hc x1 x2 := rfl

/-- The library's join of three pieces is `cat3` of them. -/
theorem cat3_intro {α : Type} (t : Shape) (a : Fin t.rank) (S1 S2 S3 : Shape) (hc : Shape.Concatenates [S1, S2, S3] t a)
    (x1 : S1.Idx → α) (x2 : S2.Idx → α) (x3 : S3.Idx → α) :
    concatenate t a [⟨S1, x1⟩, ⟨S2, x2⟩, ⟨S3, x3⟩] hc = cat3 t a S1 S2 S3 hc x1 x2 x3 := rfl

end Cert.LibConcatRead

end
-- ==== Proof.KernelTail.lean ====
/-
  The kernel program's three results, read after its last host line.

  After the region the output array is `Spec.suppCat` of the two node arrays and the two sampled weight matrices (the
  weights are the host lines before the region: `mu + eps · exp(log_sigma)`). The lines after the region spread the edge
  weights along the left 64 columns and their squares along the right 64, read the 128-wide row of every edge's source,
  scale it, and sum the scaled rows at the edges' targets into a 50000 × 128 array; the new mean is its left half, the new
  standard deviation `sqrt(exp(·) + 1e-6)` of its right half. The KL scalar is computed wholly before the region and no
  later line touches it; it subtracts the literal zero where the reference subtracts `log 1`.
-/
import proofs.«163925_j46308337386025_2_alg».proof.Proof.KernelBlock
import proofs.«163925_j46308337386025_2_alg».proof.Proof.RefTerms
import proofs.«163925_j46308337386025_2_alg».proof.Proof.LibConcatRead
import Idealize.ShloMosaic.Lib.StableHlo.Run

set_option maxRecDepth 16384

noncomputable section

namespace Cert.KernelIdeal.Tail

open Cert.KernelIdeal Cert.KernelIdeal.Gen Idealize.ShloMosaic Idealize.ShloMosaic.TcCoe Idealize.SL.Sem
open Idealize.ShloMosaic.StableHlo
open Idealize.ShloMosaic.Pipeline (Dat)

/-- The edge weights along the left 64 columns, their squares along the right 64. -/
def scaleCat (a3 : FVec Ideal S800000 .f32) : FVec Ideal S800000x128 .f32 :=
  concatenate S800000x128 1
    [⟨S800000x64, broadcastInDim S800000x64 ![0, 1] bcast_S800000x1_S800000x64_0_1 (broadcastInDim S800000x1 ![0] bcast_S800000_S800000x1_0 a3)⟩,
      ⟨S800000x64, broadcastInDim S800000x64 ![0, 1] bcast_S800000x1_S800000x64_0_1 (broadcastInDim S800000x1 ![0] bcast_S800000_S800000x1_0 (mulf a3 a3))⟩]
    concatenates_S800000x64_S800000x64_S800000x128_d1

/-- The one 128-wide propagation: rows of `S` read at the edges' sources, scaled, summed at the edges' targets. -/
def aggCat (S : FVec Ideal S50000x128 .f32) (a3 : FVec Ideal S800000 .f32) (gi si : IVec S800000x1 32) : FVec Ideal S50000x128 .f32 :=
  Host.scatterAdd scatter_S50000x128_S800000x1_S800000x128_1_0_0_1
    (broadcastInDim S50000x128 ![] bcast_S_S50000x128 (constant S_ .f32 0x00000000#32)) si
    (mulf (scaleCat a3) (Host.gather gather_S50000x128_S800000x1_S800000x128_1_0_n_n_0_1_1128 S gi))

/-- The new mean: the left half. -/
def newMean (S : FVec Ideal S50000x128 .f32) (a2 : IVec S2x800000 32) (a3 : FVec Ideal S800000 .f32) : FVec Ideal S50000x64 .f32 :=
  extractStridedSlice S50000x64 ![0, 0]
    (aggCat S a3 (Cert.ReferenceIdeal.Terms.srcCol a2) (Cert.ReferenceIdeal.Terms.dstCol a2)) slices_S50000x128_S50000x64_0_0

/-- The new standard deviation: from the right half. -/
def newStd (S : FVec Ideal S50000x128 .f32) (a2 : IVec S2x800000 32) (a3 : FVec Ideal S800000 .f32) : FVec Ideal S50000x64 .f32 :=
  Host.sqrt (addf (Host.exp (extractStridedSlice S50000x64 ![0, 64]
      (aggCat S a3 (Cert.ReferenceIdeal.Terms.srcCol a2) (Cert.ReferenceIdeal.Terms.dstCol a2)) slices_S50000x128_S50000x64_0_64))
    (broadcastInDim S50000x64 ![] bcast_S_S50000x64 (constant S_ .f32 0x358637BD#32)))

variable (m : (ℓ : Loc nD τ sig) → Buf (Elt Ideal) ℓ)

/-- The sampled weight matrices, as the region finds them. -/
theorem V_v2 (c : Dev nD) : V m c main_v2
    = Cert.ReferenceIdeal.Terms.weight (m ((c.tc : Thread nD τ).loc main_arg4)) (m ((c.tc : Thread nD τ).loc main_arg6))
        (m ((c.tc : Thread nD τ).loc main_arg5)) := by
  show StableHlo.after hostOps0 (fun b => m (c, b)) (Proc.devRef .tc main_v2) = _
  after_results
  rfl

theorem V_v5 (c : Dev nD) : V m c main_v5
    = Cert.ReferenceIdeal.Terms.weight (m ((c.tc : Thread nD τ).loc main_arg7)) (m ((c.tc : Thread nD τ).loc main_arg9))
        (m ((c.tc : Thread nD τ).loc main_arg8)) := by
  show StableHlo.after hostOps0 (fun b => m (c, b)) (Proc.devRef .tc main_v5) = _
  after_results
  rfl

/-- The region's output array in the launch contents. -/
def supp (c : Dev nD) : FVec Ideal S50000x128 .f32 :=
  Cert.Spec.suppCat (m ((c.tc : Thread nD τ).loc main_arg0)) (m ((c.tc : Thread nD τ).loc main_arg1))
    (Cert.ReferenceIdeal.Terms.weight (m ((c.tc : Thread nD τ).loc main_arg4)) (m ((c.tc : Thread nD τ).loc main_arg6))
      (m ((c.tc : Thread nD τ).loc main_arg5)))
    (Cert.ReferenceIdeal.Terms.weight (m ((c.tc : Thread nD τ).loc main_arg7)) (m ((c.tc : Thread nD τ).loc main_arg9))
      (m ((c.tc : Thread nD τ).loc main_arg8)))

theorem final' (c : Dev nD) : (dats m 0 c).arrAt 4 cfg0.N = supp m c := by
  rw [Cert.KernelIdeal.NodeBlocks.final m c]
  show Cert.Spec.suppCat (V m c main_arg0) (V m c main_arg1) (V m c main_v2) (V m c main_v5) = _
  rw [V_main_arg0, V_main_arg1, V_v2, V_v5]
  rfl

/-- What the lines after the region read: the output array, and the two edge arguments as launched. -/
theorem tail_v45 (c : Dev nD) :
    Pipeline.withArrays (cfgs 0).spec c (V0 m c) (fun w => (dats m 0 c).arrAt w (cfgs 0).N) (Proc.devRef .tc main_v45) = supp m c :=
  (Pipeline.withArrays_arr spec0 launch0.win.arr_inj c _ _ 4).trans (final' m c)

theorem tail_arg2 (c : Dev nD) :
    Pipeline.withArrays (cfgs 0).spec c (V0 m c) (fun w => (dats m 0 c).arrAt w (cfgs 0).N) (Proc.devRef .tc main_arg2)
      = m ((c.tc : Thread nD τ).loc main_arg2) :=
  (Pipeline.withArrays_of_ne _ c (V0 m c) _ main_arg2 (by exact (by decide : ∀ w, Pipeline.arrRef spec0 w ≠ main_arg2))).trans
    (V_main_arg2 m c)

theorem tail_arg3 (c : Dev nD) :
    Pipeline.withArrays (cfgs 0).spec c (V0 m c) (fun w => (dats m 0 c).arrAt w (cfgs 0).N) (Proc.devRef .tc main_arg3)
      = m ((c.tc : Thread nD τ).loc main_arg3) :=
  (Pipeline.withArrays_of_ne _ c (V0 m c) _ main_arg3 (by exact (by decide : ∀ w, Pipeline.arrRef spec0 w ≠ main_arg3))).trans
    (V_main_arg3 m c)

set_option maxHeartbeats 8000000 in
/-- THE FIRST RESULT. -/
theorem res_mean (c : Dev nD) : Pipeline.afterTail₀ cfgs (dats m) 0 (V0 m) [hostOps1] c main_v67
    = newMean (supp m c) (m ((c.tc : Thread nD τ).loc main_arg2)) (m ((c.tc : Thread nD τ).loc main_arg3)) := by
  unfold Pipeline.afterTail₀
  simp only [List.flatten_cons, List.flatten_nil, List.append_nil, hostOps1]
  after_results_simp
  simp only [Cert.LibConcatRead.cat2_intro]
  after_results_simp
  rw [tail_v45, tail_arg2, tail_arg3]
  rfl

set_option maxHeartbeats 8000000 in
/-- THE SECOND RESULT. -/
theorem res_std (c : Dev nD) : Pipeline.afterTail₀ cfgs (dats m) 0 (V0 m) [hostOps1] c main_v72
    = newStd (supp m c) (m ((c.tc : Thread nD τ).loc main_arg2)) (m ((c.tc : Thread nD τ).loc main_arg3)) := by
  unfold Pipeline.afterTail₀
  simp only [List.flatten_cons, List.flatten_nil, List.append_nil, hostOps1]
  after_results_simp
  simp only [Cert.LibConcatRead.cat2_intro]
  after_results_simp
  rw [tail_v45, tail_arg2, tail_arg3]
  rfl

set_option maxHeartbeats 8000000 in
/-- THE THIRD RESULT: computed before the region, untouched after it. -/
theorem res_kl (c : Dev nD) : Pipeline.afterTail₀ cfgs (dats m) 0 (V0 m) [hostOps1] c main_v44
    = Cert.ReferenceIdeal.Terms.kl (m ((c.tc : Thread nD τ).loc main_arg4)) (m ((c.tc : Thread nD τ).loc main_arg5))
        (m ((c.tc : Thread nD τ).loc main_arg7)) (m ((c.tc : Thread nD τ).loc main_arg8)) (constant S_ .f32 0x00000000#32) := by
  unfold Pipeline.afterTail₀
  rw [StableHlo.after_of_forall_not_mem (b := Proc.devRef .tc main_v44) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v44 (by exact (by decide : ∀ w, Pipeline.arrRef spec0 w ≠ main_v44))]
  show StableHlo.after hostOps0 (fun b => m (c, b)) (Proc.devRef .tc main_v44) = _
  after_results_simp
  rfl

end Cert.KernelIdeal.Tail

end
-- ==== Proof.KernelRun.lean ====
/-
  The kernel program's run with its three results and its ten arguments read.

  The frame run ends with every array of the pipeline at what the ten grid points wrote back and every other buffer as
  the lines after the region leave it. The three results are such other buffers; two arguments are arrays the pipeline
  stages and never writes back, the other eight are buffers no line writes.
-/
import proofs.«163925_j46308337386025_2_alg».proof.Proof.KernelTail

set_option maxRecDepth 16384

noncomputable section

namespace Cert.KernelIdeal.Tail

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- Every weakly fair execution of the kernel program terminates with the three results at their terms of the launch
    contents and the arguments unchanged. -/
theorem run : θ_run defs (onTc (τ := τ) (main (F := Ideal))) ⟨m, fun _ => 0, ρ⟩ (fun r => ∀ c : Dev nD,
      r.2.mem ((c.tc : Thread nD τ).loc main_v67)
        = newMean (supp m c) (m ((c.tc : Thread nD τ).loc main_arg2)) (m ((c.tc : Thread nD τ).loc main_arg3))
      ∧ r.2.mem ((c.tc : Thread nD τ).loc main_v72)
        = newStd (supp m c) (m ((c.tc : Thread nD τ).loc main_arg2)) (m ((c.tc : Thread nD τ).loc main_arg3))
      ∧ r.2.mem ((c.tc : Thread nD τ).loc main_v44)
        = Cert.ReferenceIdeal.Terms.kl (m ((c.tc : Thread nD τ).loc main_arg4)) (m ((c.tc : Thread nD τ).loc main_arg5))
            (m ((c.tc : Thread nD τ).loc main_arg7)) (m ((c.tc : Thread nD τ).loc main_arg8)) (constant S_ .f32 0x00000000#32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨((h c).2 main_v67 (Pipeline.mem_restRefs_of main_v67 (by decide) (by decide))).trans (res_mean m c),
      ((h c).2 main_v72 (Pipeline.mem_restRefs_of main_v72 (by decide) (by decide))).trans (res_std m c),
      ((h c).2 main_v44 (Pipeline.mem_restRefs_of main_v44 (by decide) (by decide))).trans (res_kl m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      (((h c).2 main_arg9 (Pipeline.mem_restRefs_of main_arg9 (by decide) (by decide))).trans (W_main_arg9 m (dats m) c))⟩)
    (run_main m ρ)

end Cert.KernelIdeal.Tail

end
-- ==== Proof.LibHostGather.lean ====
/-
  Two gathers through a column of start indices, read at an index.

  `table[idx]` for `table : [B, F]` and an integer vector `idx : [N]` is printed as a gather whose start indices are
  the column `[N, 1]`: the operand's first axis is collapsed (slice size one) and driven by the start index, the second
  is an offset axis taken whole. Result entry `(r, f)` is therefore `table` at row `idx r` — read as a signed integer
  and clamped into `[0, B − 1]`, as every start index of a gather is — and column `f`. The rank-one form, `v[idx]`
  for `v : [B]`, is the same without the offset axis.
-/
import Idealize.ShloMosaic.PureOps
import Idealize.ShloMosaic.Lib.ValueIdx

noncomputable section

open Idealize.ShloMosaic Idealize.ShloMosaic.ValueIdx

namespace Cert.HostInt

variable {α : Type}

/-- The dimension numbers of `table[idx]`: operand `[B, F]`, start indices `[N, 1]`, result `[N, F]`. -/
abbrev rowGatherDims (B F N : Nat)
    (wf : GatherDims.WF ⟨2, ![B, F]⟩ ⟨2, ![N, 1]⟩ ⟨2, ![N, F]⟩ [1] [0] [] [0] [] 1 ![1, F]) :
    GatherDims ⟨2, ![B, F]⟩ ⟨2, ![N, 1]⟩ ⟨2, ![N, F]⟩ where
  offsetDims := [1]
  collapsedSliceDims := [0]
  operandBatchingDims := []
  startIndicesBatchingDims := []
  startIndexMap := [0]
  indexVectorDim := 1
  sliceSizes := ![1, F]
  wf := wf

/-- The start-indices entry that result row `r` reads. -/
abbrev colIdx {N : Nat} (r : Fin N) : (⟨2, ![N, 1]⟩ : Shape).Idx := ix2 r ⟨0, Nat.one_pos⟩

/-- ROWS GATHERED: entry `(r, f)` is the operand at row `idx r`, read signed and clamped into `[0, B − 1]`, column `f`. -/
theorem gather_rows_apply {B F N w : Nat} (hB : 0 < B)
    (wf : GatherDims.WF ⟨2, ![B, F]⟩ ⟨2, ![N, 1]⟩ ⟨2, ![N, F]⟩ [1] [0] [] [0] [] 1 ![1, F])
    (x : (⟨2, ![B, F]⟩ : Shape).Idx → α) (idx : IVec ⟨2, ![N, 1]⟩ w) (r : Fin N) (f : Fin F) :
    Host.gather (rowGatherDims B F N wf) x idx (ix2 r f)
      = x (ix2 ⟨min (idx (colIdx r)).toInt.toNat (B - 1), by omega⟩ f) := by
  unfold Host.gather
  congr 1
  funext a
  refine Fin.ext ?_
  match a with
  | ⟨0, _⟩ =>
    show (rowGatherDims B F N wf).start (ix2 r f) idx 0 + (rowGatherDims B F N wf).batchCoord (ix2 r f) 0
      + (rowGatherDims B F N wf).offCoord (ix2 r f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims B F N wf).startIndexMap from List.mem_singleton.mpr rfl)]
    have hsi : (rowGatherDims B F N wf).siIdx (ix2 r f) ⟨List.idxOf (0 : Fin 2) (rowGatherDims B F N wf).startIndexMap,
        List.idxOf_lt_length_iff.2 (List.mem_singleton.mpr rfl)⟩ = colIdx r := by
      funext b; refine Fin.ext ?_
      match b with
      | ⟨0, _⟩ => rfl
      | ⟨1, _⟩ => rfl
    rw [hsi]
    rfl
  | ⟨1, _⟩ =>
    show (rowGatherDims B F N wf).start (ix2 r f) idx 1 + (rowGatherDims B F N wf).batchCoord (ix2 r f) 1
      + (rowGatherDims B F N wf).offCoord (ix2 r f) 1 = f.val
    rw [GatherDims.batchCoord_eq_zero _ _ _ List.not_mem_nil]
    unfold GatherDims.start
    rw [dif_neg (show (1 : Fin 2) ∉ (rowGatherDims B F N wf).startIndexMap from
      fun h => absurd (show (1 : Nat) = 0 from congrArg Fin.val (List.mem_singleton.mp h)) Nat.one_ne_zero)]
    simp only [Nat.add_zero, Nat.zero_add]
    rfl

/-- The dimension numbers of `v[idx]`: operand `[B]`, start indices `[N, 1]`, result `[N]`. -/
abbrev takeColDims (B N : Nat)
    (wf : GatherDims.WF ⟨1, ![B]⟩ ⟨2, ![N, 1]⟩ ⟨1, ![N]⟩ [] [0] [] [0] [] 1 ![1]) :
    GatherDims ⟨1, ![B]⟩ ⟨2, ![N, 1]⟩ ⟨1, ![N]⟩ where
  offsetDims := []
  collapsedSliceDims := [0]
  operandBatchingDims := []
  startIndicesBatchingDims := []
  startIndexMap := [0]
  indexVectorDim := 1
  sliceSizes := ![1]
  wf := wf

/-- ENTRIES TAKEN: entry `r` is the operand at `idx r`, read signed and clamped into `[0, B − 1]`. -/
theorem gather_take_col_apply {B N w : Nat} (hB : 0 < B)
    (wf : GatherDims.WF ⟨1, ![B]⟩ ⟨2, ![N, 1]⟩ ⟨1, ![N]⟩ [] [0] [] [0] [] 1 ![1])
    (x : (⟨1, ![B]⟩ : Shape).Idx → α) (idx : IVec ⟨2, ![N, 1]⟩ w) (r : Fin N) :
    Host.gather (takeColDims B N wf) x idx (ix1 r)
      = x (ix1 ⟨min (idx (colIdx r)).toInt.toNat (B - 1), by omega⟩) := by
  unfold Host.gather
  congr 1
  funext a
  obtain rfl : a = 0 := Subsingleton.elim _ _
  refine Fin.ext ?_
  show (takeColDims B N wf).start (ix1 r) idx 0 + (takeColDims B N wf).batchCoord (ix1 r) 0
    + (takeColDims B N wf).offCoord (ix1 r) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeColDims B N wf).startIndexMap from List.mem_singleton.mpr rfl)]
  have hsi : (takeColDims B N wf).siIdx (ix1 r) ⟨List.idxOf (0 : Fin 1) (takeColDims B N wf).startIndexMap,
      List.idxOf_lt_length_iff.2 (List.mem_singleton.mpr rfl)⟩ = colIdx r := by
    funext b; refine Fin.ext ?_
    match b with
    | ⟨0, _⟩ => rfl
    | ⟨1, _⟩ => rfl
  rw [hsi]
  rfl

end Cert.HostInt

end
-- ==== Proof.LibHostSegmentSum.lean ====
/-
  `segment_sum` as it is printed, read at an entry of its result at the ideal instance.

  `operand.at[idx].add(updates)` for `operand : [B, F]`, `updates : [N, F]` and an integer vector `idx : [N]` is
  printed as a float scatter-add whose scatter indices are the column `[N, 1]`: update row `r` is one window
  `[1, F]` placed at operand row `idx r`, the start index read as a signed integer and NOT clamped, and dropped
  altogether when that row is outside `[0, B)`. So update entry `(r, f)` lands on operand entry `(idx r, f)` or
  nowhere, and at the ideal instance, where the accumulation is the exact sum, result entry `(b, f)` is the operand's
  entry plus the sum over the rows `r` with `idx r = b` of `updates (r, f)`.
-/
import Idealize.ShloMosaic.PureOps
import Idealize.ShloMosaic.PureOps.Ideal
import Idealize.ShloMosaic.Lib.ValueIdx

noncomputable section

open Idealize.ShloMosaic Idealize.ShloMosaic.ValueIdx

namespace Cert.HostInt

/-- The dimension numbers of `operand.at[idx].add(updates)`: operand `[B, F]`, scatter indices `[N, 1]`, updates `[N, F]`. -/
abbrev segSumDims (B F N : Nat)
    (wf : ScatterDims.WF ⟨2, ![B, F]⟩ ⟨2, ![N, 1]⟩ ⟨2, ![N, F]⟩ [1] [0] [0] 1) :
    ScatterDims ⟨2, ![B, F]⟩ ⟨2, ![N, 1]⟩ ⟨2, ![N, F]⟩ where
  updateWindowDims := [1]
  insertedWindowDims := [0]
  scatterDimsToOperandDims := [0]
  indexVectorDim := 1
  wf := wf

/-- The scatter-indices entry that update row `r` reads. -/
abbrev rowIdx {N : Nat} (r : Fin N) : (⟨2, ![N, 1]⟩ : Shape).Idx := ix2 r ⟨0, Nat.one_pos⟩

section
variable {B F N w : Nat} (wf : ScatterDims.WF ⟨2, ![B, F]⟩ ⟨2, ![N, 1]⟩ ⟨2, ![N, F]⟩ [1] [0] [0] 1)
  (idx : IVec ⟨2, ![N, 1]⟩ w) (r : Fin N) (f : Fin F)

theorem mem_sKept_iff (a : Fin 2) : a ∈ (segSumDims B F N wf).sKept ↔ a ∉ (segSumDims B F N wf).insertedWindowDims := by
  simp [ScatterDims.sKept, Shape.kept, List.mem_filter, List.mem_finRange]

/-- On the row axis the window starts at the row's start index, read signed. -/
theorem start_row : (segSumDims B F N wf).start (ix2 r f) idx 0 = (idx (rowIdx r)).toInt := by
  unfold ScatterDims.start
  rw [dif_pos (show (0 : Fin 2) ∈ (segSumDims B F N wf).scatterDimsToOperandDims from List.mem_singleton.mpr rfl)]
  have hsi : (segSumDims B F N wf).siIdx (ix2 r f)
      ⟨List.idxOf (0 : Fin 2) (segSumDims B F N wf).scatterDimsToOperandDims,
        List.idxOf_lt_length_iff.2 (List.mem_singleton.mpr rfl)⟩ = rowIdx r := by
    funext b; refine Fin.ext ?_
    match b with
    | ⟨0, _⟩ => rfl
    | ⟨1, _⟩ => rfl
  rw [hsi]

/-- On the column axis it starts at zero. -/
theorem start_col : (segSumDims B F N wf).start (ix2 r f) idx 1 = 0 := by
  unfold ScatterDims.start
  rw [dif_neg (show (1 : Fin 2) ∉ (segSumDims B F N wf).scatterDimsToOperandDims from
    fun h => absurd (show (1 : Nat) = 0 from congrArg Fin.val (List.mem_singleton.mp h)) Nat.one_ne_zero)]

/-- The row axis is inserted: no window coordinate on it. -/
theorem window_row : (segSumDims B F N wf).window (ix2 r f) 0 = 0 := by
  unfold ScatterDims.window
  rw [dif_neg (fun h => ((mem_sKept_iff wf 0).mp h) (List.mem_singleton.mpr rfl))]

/-- The column axis carries the update's column. -/
theorem window_col : (segSumDims B F N wf).window (ix2 r f) 1 = f.val := by
  unfold ScatterDims.window
  rw [dif_pos ((mem_sKept_iff wf 1).mpr fun h =>
    absurd (show (1 : Nat) = 0 from congrArg Fin.val (List.mem_singleton.mp h)) Nat.one_ne_zero)]
  rfl

/-- WHERE AN UPDATE LANDS: entry `(r, f)` lands on `(idx r, f)` when `idx r`, read signed, is a row of the operand,
    and is dropped otherwise. -/
theorem resultIdx?_rows :
    (segSumDims B F N wf).resultIdx? (ix2 r f) idx
      = if h : 0 ≤ (idx (rowIdx r)).toInt ∧ (idx (rowIdx r)).toInt < B then
          some (ix2 ⟨(idx (rowIdx r)).toInt.toNat, by omega⟩ f)
        else none := by
  unfold ScatterDims.resultIdx?
  by_cases h : 0 ≤ (idx (rowIdx r)).toInt ∧ (idx (rowIdx r)).toInt < B
  · have hall : ∀ a : Fin 2, 0 ≤ (segSumDims B F N wf).start (ix2 r f) idx a + (segSumDims B F N wf).window (ix2 r f) a
        ∧ (segSumDims B F N wf).start (ix2 r f) idx a + (segSumDims B F N wf).window (ix2 r f) a
          < ((⟨2, ![B, F]⟩ : Shape).size a : Int) := by
      intro a
      match a with
      | ⟨0, _⟩ =>
        show 0 ≤ (segSumDims B F N wf).start (ix2 r f) idx 0 + (segSumDims B F N wf).window (ix2 r f) 0
          ∧ (segSumDims B F N wf).start (ix2 r f) idx 0 + (segSumDims B F N wf).window (ix2 r f) 0 < (B : Int)
        rw [start_row, window_row]
        simpa using h
      | ⟨1, _⟩ =>
        show 0 ≤ (segSumDims B F N wf).start (ix2 r f) idx 1 + (segSumDims B F N wf).window (ix2 r f) 1
          ∧ (segSumDims B F N wf).start (ix2 r f) idx 1 + (segSumDims B F N wf).window (ix2 r f) 1 < (F : Int)
        rw [start_col, window_col]
        have := f.isLt
        omega
    rw [dif_pos hall, dif_pos h]
    refine congrArg some (funext fun a => Fin.ext ?_)
    match a with
    | ⟨0, _⟩ =>
      show ((segSumDims B F N wf).start (ix2 r f) idx 0 + (segSumDims B F N wf).window (ix2 r f) 0).toNat
        = (idx (rowIdx r)).toInt.toNat
      rw [start_row, window_row]
      simp
    | ⟨1, _⟩ =>
      show ((segSumDims B F N wf).start (ix2 r f) idx 1 + (segSumDims B F N wf).window (ix2 r f) 1).toNat = f.val
      rw [start_col, window_col]
      simp
  · rw [dif_neg h, dif_neg]
    intro hall
    have h0 := hall 0
    have h0' : 0 ≤ (segSumDims B F N wf).start (ix2 r f) idx 0 + (segSumDims B F N wf).window (ix2 r f) 0
        ∧ (segSumDims B F N wf).start (ix2 r f) idx 0 + (segSumDims B F N wf).window (ix2 r f) 0 < (B : Int) := h0
    rw [start_row, window_row] at h0'
    exact h (by simpa using h0')

end

/-- Two rank-two indices agree exactly when their coordinates do. -/
theorem ix2_eq_iff {n0 n1 : Nat} (a a' : Fin n0) (b b' : Fin n1) : ix2 a b = ix2 a' b' ↔ a = a' ∧ b = b' :=
  ⟨fun h => ⟨congrFun h 0, congrFun h 1⟩, fun ⟨h1, h2⟩ => by rw [h1, h2]⟩

/-- THE SEGMENT SUM AT AN ENTRY, at the ideal instance: the operand's entry plus the updates of the rows whose start
    index, read signed, is `b`. -/
theorem scatterAdd_rows_apply {B F N w : Nat} {φ : FTy}
    (wf : ScatterDims.WF ⟨2, ![B, F]⟩ ⟨2, ![N, 1]⟩ ⟨2, ![N, F]⟩ [1] [0] [0] 1)
    (x : FVec Ideal ⟨2, ![B, F]⟩ φ) (idx : IVec ⟨2, ![N, 1]⟩ w) (upd : FVec Ideal ⟨2, ![N, F]⟩ φ)
    (b : Fin B) (f : Fin F) :
    Host.scatterAdd (F := Ideal) (segSumDims B F N wf) x idx upd (ix2 b f)
      = x (ix2 b f) + ∑ r : Fin N, if (idx (rowIdx r)).toInt = (b.val : Int) then upd (ix2 r f) else 0 := by
  show Ideal.hostScatterAdd (segSumDims B F N wf) x idx upd (ix2 b f) = _
  unfold Ideal.hostScatterAdd
  refine congrArg (x (ix2 b f) + ·) ?_
  rw [Finset.sum_filter, sum_idx2]
  refine Finset.sum_congr rfl fun r _ => ?_
  simp only [resultIdx?_rows]
  have hb := b.isLt
  by_cases h : 0 ≤ (idx (rowIdx r)).toInt ∧ (idx (rowIdx r)).toInt < B
  · simp only [dif_pos h, Option.some.injEq, ix2_eq_iff]
    by_cases ht : (idx (rowIdx r)).toInt = (b.val : Int)
    · rw [if_pos ht, Finset.sum_eq_single f]
      · rw [if_pos ⟨Fin.ext (by show (idx (rowIdx r)).toInt.toNat = b.val; omega), rfl⟩]
      · intro f' _ hf'
        rw [if_neg fun hh => hf' hh.2]
      · intro hf
        exact absurd (Finset.mem_univ _) hf
    · rw [if_neg ht]
      refine Finset.sum_eq_zero fun f' _ => ?_
      rw [if_neg]
      intro hh
      have : (idx (rowIdx r)).toInt.toNat = b.val := congrArg Fin.val hh.1
      omega
  · simp only [dif_neg h]
    rw [if_neg (by omega)]
    refine Finset.sum_eq_zero fun f' _ => ?_
    rw [if_neg (by simp)]

end Cert.HostInt

end
-- ==== Proof.LibEdgeAggregate.lean ====
/-
  Messages along edges, summed at their targets, read at an entry.

  Every edge `e` reads one row of a table — the row named by the edge's source word, read signed and clamped into the
  table —, scales it entry by entry, and adds the scaled row into the row of the result named by the edge's target word,
  read signed, or nowhere when that word names no row. So entry `(r, k)` of the result is the operand's entry plus the
  sum, over the edges `e` whose target is `r`, of the scale's entry `(e, k)` times the table's entry `(source e, k)`.
  Nothing here depends on the width of the rows: the same statement reads a table of 64 columns and one of 128.
-/
import proofs.«163925_j46308337386025_2_alg».proof.Proof.LibHostGather
import proofs.«163925_j46308337386025_2_alg».proof.Proof.LibHostSegmentSum

noncomputable section

open Idealize.ShloMosaic Idealize.ShloMosaic.ValueIdx

namespace Cert.Agg

open Cert.HostInt

/-- The table row edge `e` reads: its source word, read signed, clamped into `[0, B − 1]`. -/
def srcRow {B N w : Nat} (hB : 0 < B) (gi : IVec ⟨2, ![N, 1]⟩ w) (e : Fin N) : Fin B :=
  ⟨min (gi (colIdx e)).toInt.toNat (B - 1), by omega⟩

/-- THE AGGREGATION AT AN ENTRY: the operand's entry plus the scaled table rows of the edges that land on row `r`. -/
theorem scatter_mul_gather_apply {B F N w : Nat} {φ : FTy} (hB : 0 < B)
    (wfg : GatherDims.WF ⟨2, ![B, F]⟩ ⟨2, ![N, 1]⟩ ⟨2, ![N, F]⟩ [1] [0] [] [0] [] 1 ![1, F])
    (wfs : ScatterDims.WF ⟨2, ![B, F]⟩ ⟨2, ![N, 1]⟩ ⟨2, ![N, F]⟩ [1] [0] [0] 1)
    (z x : FVec Ideal ⟨2, ![B, F]⟩ φ) (sc : FVec Ideal ⟨2, ![N, F]⟩ φ) (gi si : IVec ⟨2, ![N, 1]⟩ w)
    (r : Fin B) (k : Fin F) :
    Host.scatterAdd (F := Ideal) (segSumDims B F N wfs) z si
        (mulf sc (Host.gather (rowGatherDims B F N wfg) x gi)) (ix2 r k)
      = z (ix2 r k) + ∑ e : Fin N,
          if (si (rowIdx e)).toInt = (r.val : Int) then sc (ix2 e k) * x (ix2 (srcRow hB gi e) k) else 0 := by
  rw [scatterAdd_rows_apply]
  refine congrArg (z (ix2 r k) + ·) (Finset.sum_congr rfl fun e _ => ?_)
  rw [mulf_apply, gather_rows_apply hB]
  rfl

/-- A COLUMN OF ONE AGGREGATION AGAINST A COLUMN OF ANOTHER: two aggregations over the same edges, of row widths `Fa` and
    `Fb`, agree at column `ka` of the first and column `kb` of the second as soon as their operands, their tables and their
    scales agree at those two columns — the sum at an entry never looks at another column. -/
theorem agg_col_eq {B N w Fa Fb : Nat} {φ : FTy} (hB : 0 < B)
    (wfgA : GatherDims.WF ⟨2, ![B, Fa]⟩ ⟨2, ![N, 1]⟩ ⟨2, ![N, Fa]⟩ [1] [0] [] [0] [] 1 ![1, Fa])
    (wfsA : ScatterDims.WF ⟨2, ![B, Fa]⟩ ⟨2, ![N, 1]⟩ ⟨2, ![N, Fa]⟩ [1] [0] [0] 1)
    (wfgB : GatherDims.WF ⟨2, ![B, Fb]⟩ ⟨2, ![N, 1]⟩ ⟨2, ![N, Fb]⟩ [1] [0] [] [0] [] 1 ![1, Fb])
    (wfsB : ScatterDims.WF ⟨2, ![B, Fb]⟩ ⟨2, ![N, 1]⟩ ⟨2, ![N, Fb]⟩ [1] [0] [0] 1)
    (zA xA : FVec Ideal ⟨2, ![B, Fa]⟩ φ) (scA : FVec Ideal ⟨2, ![N, Fa]⟩ φ)
    (zB xB : FVec Ideal ⟨2, ![B, Fb]⟩ φ) (scB : FVec Ideal ⟨2, ![N, Fb]⟩ φ)
    (gi si : IVec ⟨2, ![N, 1]⟩ w) (ka : Fin Fa) (kb : Fin Fb)
    (hz : ∀ r : Fin B, zA (ix2 r ka) = zB (ix2 r kb))
    (hx : ∀ r : Fin B, xA (ix2 r ka) = xB (ix2 r kb))
    (hsc : ∀ e : Fin N, scA (ix2 e ka) = scB (ix2 e kb)) (r : Fin B) :
    Host.scatterAdd (F := Ideal) (segSumDims B Fa N wfsA) zA si
        (mulf scA (Host.gather (rowGatherDims B Fa N wfgA) xA gi)) (ix2 r ka)
      = Host.scatterAdd (F := Ideal) (segSumDims B Fb N wfsB) zB si
        (mulf scB (Host.gather (rowGatherDims B Fb N wfgB) xB gi)) (ix2 r kb) := by
  rw [scatter_mul_gather_apply hB, scatter_mul_gather_apply hB, hz]
  refine congrArg (zB (ix2 r kb) + ·) (Finset.sum_congr rfl fun e _ => ?_)
  rw [hsc, hx]

end Cert.Agg

end
-- ==== Proof.Bridge.lean ====
/-
  One 128-wide propagation against two 64-wide ones.

  The kernel program propagates the two matrix products side by side: a 128-wide row per edge, the edge weight on the
  left 64 columns and its square on the right 64. Entry `(n, c)` of a propagation is the sum, over the edges that land on
  node `n`, of the scale's entry at column `c` times the table's entry `(source, c)`; it never looks at another column. So
  column `c` of the wide result is column `c` of the propagation of `mean · W_mean` under the edge weights, and column
  `64 + c` is column `c` of the propagation of `std² · W_std` under the squared weights: the two programs compute the same
  sums of the same extended reals, term by term, with no law of arithmetic needed between them. The KL scalars differ by
  the logarithm of one, which is zero.
-/
import proofs.«163925_j46308337386025_2_alg».proof.Proof.KernelTail
import proofs.«163925_j46308337386025_2_alg».proof.Proof.LibEdgeAggregate
import Idealize.ShloMosaic.Lib.IdealHost

set_option maxRecDepth 16384

noncomputable section

namespace Cert.Bridge

open Idealize.ShloMosaic Idealize.ShloMosaic.ValueIdx

/-- The reference's matrix product at an entry is the sum over the 64 contraction positions. -/
theorem dot_apply (X : FVec Ideal ⟨2, ![50000, 64]⟩ .f32) (W : FVec Ideal ⟨2, ![64, 64]⟩ .f32) (r : Fin 50000) (c : Fin 64) :
    Host.dotGeneral Cert.ReferenceIdeal.dot_S50000x64_S64x64_S50000x64_1_0_0_1_n_n none X W (ix2 r c) = Cert.Spec.prod X W r c := by
  show Host.dotGeneral (DotDims.plain 50000 64 64) none X W (ix2 r c) = _
  exact Cert.LibPlainDot.dotGeneral_apply none X W r c

/-- The spread edge weights at a left column of the pair. -/
theorem scaleCat_left (a3 : FVec Ideal ⟨1, ![800000]⟩ .f32) (e : Fin 800000) (c : Fin 64) (c' : Fin 128) (hc : c'.val = c.val) :
    Cert.KernelIdeal.Tail.scaleCat a3 (ix2 e c') = Cert.ReferenceIdeal.Terms.scale a3 (ix2 e c) := by
  unfold Cert.KernelIdeal.Tail.scaleCat
  rw [concatenate_pair_apply_left (t := Cert.KernelIdeal.S800000x128) (s₁ := Cert.KernelIdeal.S800000x64)
    (s₂ := Cert.KernelIdeal.S800000x64) (1 : Fin 2) _ _ _ (ix2 e c') rfl (ix2 e c) (fun b => by
      match b with
      | ⟨0, _⟩ => rfl
      | ⟨1, _⟩ => exact hc.symm)]
  rfl

/-- The spread squared edge weights at a right column of the pair. -/
theorem scaleCat_right (a3 : FVec Ideal ⟨1, ![800000]⟩ .f32) (e : Fin 800000) (c : Fin 64) (c' : Fin 128) (hc : c'.val = 64 + c.val) :
    Cert.KernelIdeal.Tail.scaleCat a3 (ix2 e c') = Cert.ReferenceIdeal.Terms.scale (mulf a3 a3) (ix2 e c) := by
  unfold Cert.KernelIdeal.Tail.scaleCat
  rw [concatenate_pair_apply_right (t := Cert.KernelIdeal.S800000x128) (s₁ := Cert.KernelIdeal.S800000x64)
    (s₂ := Cert.KernelIdeal.S800000x64) (1 : Fin 2) _ _ _ (ix2 e c') rfl rfl (ix2 e c) (fun b hb => by
      match b with
      | ⟨0, _⟩ => rfl
      | ⟨1, _⟩ => exact absurd rfl hb) (by show c.val + 64 = c'.val; omega)]
  rfl

/-- A LEFT COLUMN of the wide propagation is the propagation of the first product under the edge weights. -/
theorem aggCat_left (X Y : FVec Ideal ⟨2, ![50000, 64]⟩ .f32) (Wm Ws : FVec Ideal ⟨2, ![64, 64]⟩ .f32)
    (a3 : FVec Ideal ⟨1, ![800000]⟩ .f32) (gi si : IVec ⟨2, ![800000, 1]⟩ 32) (n : Fin 50000) (c : Fin 64) (c' : Fin 128)
    (hc : c'.val = c.val) :
    Cert.KernelIdeal.Tail.aggCat (Cert.Spec.suppCat X Y Wm Ws) a3 gi si (ix2 n c')
      = Cert.ReferenceIdeal.Terms.agg
          (Host.dotGeneral Cert.ReferenceIdeal.dot_S50000x64_S64x64_S50000x64_1_0_0_1_n_n none X Wm) a3 gi si (ix2 n c) := by
  unfold Cert.KernelIdeal.Tail.aggCat Cert.ReferenceIdeal.Terms.agg
  refine Cert.Agg.agg_col_eq (B := 50000) (N := 800000) (Fa := 128) (Fb := 64) (by decide)
    Cert.KernelIdeal.Gen.gather_S50000x128_S800000x1_S800000x128_1_0_n_n_0_1_1128_wf
    Cert.KernelIdeal.Gen.scatter_S50000x128_S800000x1_S800000x128_1_0_0_1_wf
    Cert.ReferenceIdeal.Gen.gather_S50000x64_S800000x1_S800000x64_1_0_n_n_0_1_164_wf
    Cert.ReferenceIdeal.Gen.scatter_S50000x64_S800000x1_S800000x64_1_0_0_1_wf
    _ _ _ _ _ _ gi si c' c (fun r => rfl) (fun r => ?_) (fun e => scaleCat_left a3 e c c' hc) n
  exact (Cert.Spec.suppCat_left X Y Wm Ws r c c' hc).trans (dot_apply X Wm r c).symm

/-- A RIGHT COLUMN of the wide propagation is the propagation of the second product under the squared edge weights. -/
theorem aggCat_right (X Y : FVec Ideal ⟨2, ![50000, 64]⟩ .f32) (Wm Ws : FVec Ideal ⟨2, ![64, 64]⟩ .f32)
    (a3 : FVec Ideal ⟨1, ![800000]⟩ .f32) (gi si : IVec ⟨2, ![800000, 1]⟩ 32) (n : Fin 50000) (c : Fin 64) (c' : Fin 128)
    (hc : c'.val = 64 + c.val) :
    Cert.KernelIdeal.Tail.aggCat (Cert.Spec.suppCat X Y Wm Ws) a3 gi si (ix2 n c')
      = Cert.ReferenceIdeal.Terms.agg
          (Host.dotGeneral Cert.ReferenceIdeal.dot_S50000x64_S64x64_S50000x64_1_0_0_1_n_n none (mulf Y Y) Ws)
          (mulf a3 a3) gi si (ix2 n c) := by
  unfold Cert.KernelIdeal.Tail.aggCat Cert.ReferenceIdeal.Terms.agg
  refine Cert.Agg.agg_col_eq (B := 50000) (N := 800000) (Fa := 128) (Fb := 64) (by decide)
    Cert.KernelIdeal.Gen.gather_S50000x128_S800000x1_S800000x128_1_0_n_n_0_1_1128_wf
    Cert.KernelIdeal.Gen.scatter_S50000x128_S800000x1_S800000x128_1_0_0_1_wf
    Cert.ReferenceIdeal.Gen.gather_S50000x64_S800000x1_S800000x64_1_0_n_n_0_1_164_wf
    Cert.ReferenceIdeal.Gen.scatter_S50000x64_S800000x1_S800000x64_1_0_0_1_wf
    _ _ _ _ _ _ gi si c' c (fun r => rfl) (fun r => ?_) (fun e => scaleCat_right a3 e c c' hc) n
  exact (Cert.Spec.suppCat_right X Y Wm Ws r c c' hc).trans (dot_apply (mulf Y Y) Ws r c).symm

/-- THE NEW MEAN: the kernel program's left half is the reference's propagation. -/
theorem mean_eq (X Y : FVec Ideal ⟨2, ![50000, 64]⟩ .f32) (Wm Ws : FVec Ideal ⟨2, ![64, 64]⟩ .f32)
    (a2 : IVec ⟨2, ![2, 800000]⟩ 32) (a3 : FVec Ideal ⟨1, ![800000]⟩ .f32) :
    Cert.KernelIdeal.Tail.newMean (Cert.Spec.suppCat X Y Wm Ws) a2 a3
      = Cert.ReferenceIdeal.Terms.agg
          (Host.dotGeneral Cert.ReferenceIdeal.dot_S50000x64_S64x64_S50000x64_1_0_0_1_n_n none X Wm) a3
          (Cert.ReferenceIdeal.Terms.srcCol a2) (Cert.ReferenceIdeal.Terms.dstCol a2) := by
  funext i
  obtain ⟨n, c, rfl⟩ : ∃ (n : Fin 50000) (c : Fin 64), i = ix2 n c := ⟨i 0, i 1, eq_ix2 i⟩
  unfold Cert.KernelIdeal.Tail.newMean
  rw [extractStridedSlice_apply _ _ _ (ix2 n c) (ix2 n (⟨c.val, by have := c.isLt; omega⟩ : Fin 128)) (fun a => by
    match a with
    | ⟨0, _⟩ => show n.val = 0 + n.val; omega
    | ⟨1, _⟩ => show c.val = 0 + c.val; omega)]
  exact aggCat_left X Y Wm Ws a3 _ _ n c _ rfl

/-- THE RIGHT HALF is the reference's propagation of the variances. -/
theorem var_eq (X Y : FVec Ideal ⟨2, ![50000, 64]⟩ .f32) (Wm Ws : FVec Ideal ⟨2, ![64, 64]⟩ .f32)
    (a2 : IVec ⟨2, ![2, 800000]⟩ 32) (a3 : FVec Ideal ⟨1, ![800000]⟩ .f32) :
    extractStridedSlice Cert.KernelIdeal.S50000x64 ![0, 64]
        (Cert.KernelIdeal.Tail.aggCat (Cert.Spec.suppCat X Y Wm Ws) a3 (Cert.ReferenceIdeal.Terms.srcCol a2)
          (Cert.ReferenceIdeal.Terms.dstCol a2)) Cert.KernelIdeal.Gen.slices_S50000x128_S50000x64_0_64
      = Cert.ReferenceIdeal.Terms.agg
          (Host.dotGeneral Cert.ReferenceIdeal.dot_S50000x64_S64x64_S50000x64_1_0_0_1_n_n none (mulf Y Y) Ws) (mulf a3 a3)
          (Cert.ReferenceIdeal.Terms.srcCol a2) (Cert.ReferenceIdeal.Terms.dstCol a2) := by
  funext i
  obtain ⟨n, c, rfl⟩ : ∃ (n : Fin 50000) (c : Fin 64), i = ix2 n c := ⟨i 0, i 1, eq_ix2 i⟩
  rw [extractStridedSlice_apply _ _ _ (ix2 n c) (ix2 n (⟨64 + c.val, by have := c.isLt; omega⟩ : Fin 128)) (fun a => by
    match a with
    | ⟨0, _⟩ => show n.val = 0 + n.val; omega
    | ⟨1, _⟩ => rfl)]
  exact aggCat_right X Y Wm Ws a3 _ _ n c _ rfl

/-- THE NEW STANDARD DEVIATION. -/
theorem std_eq (X Y : FVec Ideal ⟨2, ![50000, 64]⟩ .f32) (Wm Ws : FVec Ideal ⟨2, ![64, 64]⟩ .f32)
    (a2 : IVec ⟨2, ![2, 800000]⟩ 32) (a3 : FVec Ideal ⟨1, ![800000]⟩ .f32) :
    Cert.KernelIdeal.Tail.newStd (Cert.Spec.suppCat X Y Wm Ws) a2 a3
      = Host.sqrt (addf (Host.exp (Cert.ReferenceIdeal.Terms.agg
          (Host.dotGeneral Cert.ReferenceIdeal.dot_S50000x64_S64x64_S50000x64_1_0_0_1_n_n none (mulf Y Y) Ws) (mulf a3 a3)
          (Cert.ReferenceIdeal.Terms.srcCol a2) (Cert.ReferenceIdeal.Terms.dstCol a2)))
        (broadcastInDim Cert.ReferenceIdeal.S50000x64 ![] Cert.ReferenceIdeal.Gen.bcast_S_S50000x64
          (constant Cert.ReferenceIdeal.S_ .f32 0x358637BD#32))) := by
  unfold Cert.KernelIdeal.Tail.newStd
  rw [var_eq X Y Wm Ws a2 a3]

/-- The logarithm of the f32 one is the f32 zero. -/
theorem log_one : Host.log (F := Ideal) (constant Cert.ReferenceIdeal.S_ .f32 0x3F800000#32)
    = constant Cert.ReferenceIdeal.S_ .f32 0x00000000#32 := by
  funext i
  show Ideal.log (Ideal.ofBits .f32 0x3F800000#32) = Ideal.ofBits .f32 0x00000000#32
  rw [Ideal.ofBits_one_f32, Ideal.ofBits_zero_f32]
  have h : Ideal.log ((1 : ℝ) : EReal) = if (1 : ℝ) ≤ 0 then ⊥ else ((Real.log 1 : ℝ) : EReal) := rfl
  rw [show (1 : EReal) = ((1 : ℝ) : EReal) from rfl, h, if_neg (by norm_num), Real.log_one]
  rfl

end Cert.Bridge

end
-- ==== Proof.lean ====
/-
  A Bayesian graph-convolution layer: the tiled kernel program against its plain reference, at the extended reals.

  Both programs sample two 64 × 64 weight matrices `W = mu + eps · exp(log_sigma)`, propagate `mean · W_mean` along the
  800000 edges under the edge weights and `std² · W_std` under the squared edge weights (each edge reads the row of its
  source node, scales it, and adds it into the row of its target node), return the first propagation, `sqrt(exp(·) + 1e-6)`
  of the second, and the sum of the two matrices' KL terms.

  The kernel program computes the two 50000 × 64 products in one tiled kernel, ten row blocks of 5000, with bf16 operands,
  and writes them side by side into one 50000 × 128 array; it then propagates that array once, with the edge weights spread
  over the left 64 columns and their squares over the right 64, and slices the result in two. At the extended reals a
  change of float format is the identity and a matrix product is the plain sum over the contraction index, so the kernel's
  array is the two reference products side by side (KernelBlock); an entry of a propagation is a sum over the edges landing
  on its row of products taken in its own column, so the left and right halves of the wide propagation are the two narrow
  ones, term by term (LibEdgeAggregate, Bridge); no law of arithmetic beyond that is used and the precondition is never opened.
  The KL scalars differ only in that the kernel program subtracts the literal zero where the reference subtracts the
  logarithm of the literal one.

  The three frames are the generated ones (the reference's is its generated run with the results dropped); the ideal pass
  rewrote nothing, so `preserves` is `True`.
-/
import proofs.«163925_j46308337386025_2_alg».proof.Defs
import proofs.«163925_j46308337386025_2_alg».proof.Proof.Gen.Kernel
import proofs.«163925_j46308337386025_2_alg».proof.Proof.Gen.Kernel.Skeleton
import proofs.«163925_j46308337386025_2_alg».proof.Proof.Gen.Kernel.Launch
import proofs.«163925_j46308337386025_2_alg».proof.Proof.Gen.Kernel.Points
import proofs.«163925_j46308337386025_2_alg».proof.Proof.Gen.Kernel.Frame
import proofs.«163925_j46308337386025_2_alg».proof.Proof.Gen.KernelIdeal
import proofs.«163925_j46308337386025_2_alg».proof.Proof.Gen.KernelIdeal.Skeleton
import proofs.«163925_j46308337386025_2_alg».proof.Proof.Gen.KernelIdeal.Launch
import proofs.«163925_j46308337386025_2_alg».proof.Proof.Gen.KernelIdeal.Points
import proofs.«163925_j46308337386025_2_alg».proof.Proof.Gen.KernelIdeal.Frame
import proofs.«163925_j46308337386025_2_alg».proof.Proof.Gen.ReferenceIdeal
import proofs.«163925_j46308337386025_2_alg».proof.Proof.Gen.Pre_finite_inputs
import proofs.«163925_j46308337386025_2_alg».proof.Proof.Gen.ReferenceIdeal.Run
import proofs.«163925_j46308337386025_2_alg».proof.Proof.KernelRun
import proofs.«163925_j46308337386025_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- The ideal pass rewrote no operation. -/
theorem preserves : Cert.preserves_Kernel_KernelIdeal := trivial

set_option maxHeartbeats 4000000 in
/-- Both programs end with the reference's three terms of the (agreeing) arguments. -/
theorem algebraic : Cert.algebraic_KernelIdeal_ReferenceIdeal := by
  intro m ρ m' ρ' _ hagree
  refine ⟨fun c => Cert.ReferenceIdeal.Terms.newMean
        (m ((c.tc : Thread Cert.KernelIdeal.nD Cert.KernelIdeal.τ).loc Cert.KernelIdeal.main_arg0))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6)),
      fun c => Cert.ReferenceIdeal.Terms.newStd
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (m ((c.tc : Thread Cert.KernelIdeal.nD Cert.KernelIdeal.τ).loc Cert.KernelIdeal.main_arg9)),
      fun c => Cert.ReferenceIdeal.Terms.kl
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
        (constant Cert.ReferenceIdeal.S_ .f32 0x00000000#32), ?_, ?_⟩
  · -- the kernel program: its results, read after the last host line, are the reference's terms
    refine (θ_run Cert.KernelIdeal.defs _ _).mono (fun r h c => ?_) (Cert.KernelIdeal.Tail.run m ρ)
    refine ⟨(h c).1.trans ?_, (h c).2.1.trans ?_, (h c).2.2.1, (h c).2.2.2⟩
    · exact Cert.Bridge.mean_eq _ _ _ _ _ _
    · exact Cert.Bridge.std_eq _ _ _ _ _ _
  · -- the reference: its run's terms, at arguments that agree with the kernel program's
    refine (θ_run Cert.ReferenceIdeal.defs _ _).mono (fun r h c => ?_) (Cert.ReferenceIdeal.Value.run (F := Ideal) m' ρ')
    obtain ⟨h0, h1, h2, h3, h4, h5, h6, h7, h8, h9⟩ := hagree c
    refine ⟨(h c).1.trans ?_, (h c).2.1.trans ?_, (h c).2.2.1.trans ?_, (h c).2.2.2⟩
    · rw [h0, h2, h3, h4, h5, h6]
      rfl
    · rw [h1, h2, h3, h7, h8, h9]
      rfl
    · rw [h4, h5, h7, h8]
      show Cert.ReferenceIdeal.Terms.kl _ _ _ _ (Host.log (constant Cert.ReferenceIdeal.S_ .f32 0x3F800000#32)) = _
      rw [Cert.Bridge.log_one]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
